-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2048x64x64 : Shape := ⟨3, ![2048, 64, 64]⟩
abbrev S4096 : Shape := ⟨1, ![4096]⟩
abbrev S65 : Shape := ⟨1, ![65]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2048x64x64 : S_.BroadcastsInDim S2048x64x64 (![] : Fin 0 → Fin S2048x64x64.rank)
  reducesTo_S2048x64x64_S_d0_1_2 : S2048x64x64.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S2048x64x64 .f32) (main_arg2 : FVec F S4096 .f32) (main_arg3 : IVec S65 32) (main_arg4 : IVec S2048 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S2048x64x64 : Shape := ⟨3, ![2048, 64, 64]⟩
abbrev S4096 : Shape := ⟨1, ![4096]⟩
abbrev S65 : Shape := ⟨1, ![65]⟩
abbrev S2048 : Shape := ⟨1, ![2048]⟩
abbrev S64 : Shape := ⟨1, ![64]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S64x64x64x64 : Shape := ⟨4, ![64, 64, 64, 64]⟩
abbrev S2048x2 : Shape := ⟨2, ![2048, 2]⟩
abbrev S4096x4096 : Shape := ⟨2, ![4096, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 85
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2048x64x64, .f32⟩
  | .hbm, ⟨2, _⟩ => ⟨S4096, .f32⟩
  | .hbm, ⟨3, _⟩ => ⟨S65, .i32⟩
  | .hbm, ⟨4, _⟩ => ⟨S2048, .i32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S1, .i32⟩
  | .hbm, ⟨10, _⟩ => ⟨S63, .i32⟩
  | .hbm, ⟨11, _⟩ => ⟨S64, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S_, .i32⟩
  | .hbm, ⟨18, _⟩ => ⟨S64, .i32⟩
  | .hbm, ⟨19, _⟩ => ⟨S_, .i32⟩
  | .hbm, ⟨20, _⟩ => ⟨S2048, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64, .i32⟩
  | .hbm, ⟨31, _⟩ => ⟨S2048, .i32⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S1x1, .i32⟩
  | .hbm, ⟨51, _⟩ => ⟨S2048x1, .i32⟩
  | .hbm, ⟨52, _⟩ => ⟨S2048x1, .i1⟩
  | .hbm, ⟨53, _⟩ => ⟨S2048x1, .i1⟩
  | .hbm, ⟨54, _⟩ => ⟨S_, .i1⟩
  | .hbm, ⟨55, _⟩ => ⟨S2048, .i1⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S_, .f32⟩
  | .hbm, ⟨61, _⟩ => ⟨S64x64x64x64, .f32⟩
  | .hbm, ⟨62, _⟩ => ⟨S_, .i32⟩
  | .hbm, ⟨63, _⟩ => ⟨S2048, .i32⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x1, .i32⟩
  | .hbm, ⟨78, _⟩ => ⟨S2048x2, .i32⟩
  | .hbm, ⟨79, _⟩ => ⟨S64x64x64x64, .f32⟩
  | .hbm, ⟨80, _⟩ => ⟨S64x64x64x64, .f32⟩
  | .hbm, ⟨81, _⟩ => ⟨S4096x4096, .f32⟩
  | .hbm, ⟨82, _⟩ => ⟨S8192x4096, .bf16⟩
  | .hbm, ⟨83, _⟩ => ⟨S4096x4096, .bf16⟩
  | .hbm, ⟨84, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_call2_call0_c : Ref sig .tc := ⟨.hbm, 16, rfl⟩
abbrev main_call2_call0_v0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_call3_call0_c : Ref sig .tc := ⟨.hbm, 32, rfl⟩
abbrev main_call3_call0_v0 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_call4_c : Ref sig .tc := ⟨.hbm, 38, rfl⟩
abbrev main_call4_v0 : Ref sig .tc := ⟨.hbm, 39, rfl⟩
abbrev main_call4_v1 : Ref sig .tc := ⟨.hbm, 40, rfl⟩
abbrev main_call4_c_0 : Ref sig .tc := ⟨.hbm, 41, rfl⟩
abbrev main_call4_v2 : Ref sig .tc := ⟨.hbm, 42, rfl⟩
abbrev main_call4_v3 : Ref sig .tc := ⟨.hbm, 43, rfl⟩
abbrev main_call4_v4 : Ref sig .tc := ⟨.hbm, 44, rfl⟩
abbrev main_call4_v5 : Ref sig .tc := ⟨.hbm, 45, rfl⟩
abbrev main_call4_c_1 : Ref sig .tc := ⟨.hbm, 46, rfl⟩
abbrev main_call4_c_2 : Ref sig .tc := ⟨.hbm, 47, rfl⟩
abbrev main_call4_v6 : Ref sig .tc := ⟨.hbm, 48, rfl⟩
abbrev main_call4_v7 : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_v11 : Ref sig .tc := ⟨.hbm, 53, rfl⟩
abbrev main_call4_c_3 : Ref sig .tc := ⟨.hbm, 54, rfl⟩
abbrev main_call4_v12 : Ref sig .tc := ⟨.hbm, 55, rfl⟩
abbrev main_call4_v13 : Ref sig .tc := ⟨.hbm, 56, rfl⟩
abbrev main_call4_c_4 : Ref sig .tc := ⟨.hbm, 57, rfl⟩
abbrev main_call4_v14 : Ref sig .tc := ⟨.hbm, 58, rfl⟩
abbrev main_v18 : Ref sig .tc := ⟨.hbm, 59, rfl⟩
abbrev main_cst : Ref sig .tc := ⟨.hbm, 60, rfl⟩
abbrev main_v19 : Ref sig .tc := ⟨.hbm, 61, rfl⟩
abbrev main_c_6 : Ref sig .tc := ⟨.hbm, 62, rfl⟩
abbrev main_v20 : Ref sig .tc := ⟨.hbm, 63, rfl⟩
abbrev main_v21 : Ref sig .tc := ⟨.hbm, 64, rfl⟩
abbrev main_c_7 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_8 : Ref sig .tc := ⟨.hbm, 69, rfl⟩
abbrev main_v25 : Ref sig .tc := ⟨.hbm, 70, rfl⟩
abbrev main_v26 : Ref sig .tc := ⟨.hbm, 71, rfl⟩
abbrev main_c_9 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S65_S64_1 : S65.Slices ![1] S64
  slices_S65_S64_0 : S65.Slices ![0] S64
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S_S64x64x64x64 : S_.BroadcastsInDim S64x64x64x64 (![] : Fin 0 → Fin S64x64x64x64.rank)
  concatenates_S2048x1_S2048x1_S2048x2_d1 : Shape.Concatenates [S2048x1, S2048x1] S2048x2 1
  transposes_S64x64x64x64_S64x64x64x64_1_3_0_2 : S64x64x64x64.Transposes [1, 3, 0, 2] S64x64x64x64
  shapeCasts_S64x64x64x64_S4096x4096 : S64x64x64x64.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  scatter_S64x64x64x64_S2048x2_S2048x64x64_12_01_01_1_wf : ScatterDims.WF S64x64x64x64 S2048x2 S2048x64x64 [1, 2] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def scatter_S64x64x64x64_S2048x2_S2048x64x64_12_01_01_1 : ScatterDims S64x64x64x64 S2048x2 S2048x64x64 where
  updateWindowDims := [1, 2]
  insertedWindowDims := [0, 1]
  scatterDimsToOperandDims := [0, 1]
  indexVectorDim := 1
  wf := scatter_S64x64x64x64_S2048x2_S2048x64x64_12_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v36) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S2048x64x64 : Shape := ⟨3, ![2048, 64, 64]⟩
abbrev S4096 : Shape := ⟨1, ![4096]⟩
abbrev S65 : Shape := ⟨1, ![65]⟩
abbrev S2048 : Shape := ⟨1, ![2048]⟩
abbrev S64 : Shape := ⟨1, ![64]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S64x64x64x64 : Shape := ⟨4, ![64, 64, 64, 64]⟩
abbrev S2048x2 : Shape := ⟨2, ![2048, 2]⟩
abbrev S4096x4096 : Shape := ⟨2, ![4096, 4096]⟩
abbrev S1x4096 : Shape := ⟨2, ![1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x64x64, .f32⟩
  | .hbm, ⟨2, _⟩ => ⟨S4096, .f32⟩
  | .hbm, ⟨3, _⟩ => ⟨S65, .i32⟩
  | .hbm, ⟨4, _⟩ => ⟨S2048, .i32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S1, .i32⟩
  | .hbm, ⟨10, _⟩ => ⟨S63, .i32⟩
  | .hbm, ⟨11, _⟩ => ⟨S64, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S_, .i32⟩
  | .hbm, ⟨18, _⟩ => ⟨S64, .i32⟩
  | .hbm, ⟨19, _⟩ => ⟨S_, .i32⟩
  | .hbm, ⟨20, _⟩ => ⟨S2048, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64, .i32⟩
  | .hbm, ⟨31, _⟩ => ⟨S2048, .i32⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S1x1, .i32⟩
  | .hbm, ⟨51, _⟩ => ⟨S2048x1, .i32⟩
  | .hbm, ⟨52, _⟩ => ⟨S2048x1, .i1⟩
  | .hbm, ⟨53, _⟩ => ⟨S2048x1, .i1⟩
  | .hbm, ⟨54, _⟩ => ⟨S_, .i1⟩
  | .hbm, ⟨55, _⟩ => ⟨S2048, .i1⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S_, .f32⟩
  | .hbm, ⟨61, _⟩ => ⟨S64x64x64x64, .f32⟩
  | .hbm, ⟨62, _⟩ => ⟨S_, .i32⟩
  | .hbm, ⟨63, _⟩ => ⟨S2048, .i32⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x1, .i32⟩
  | .hbm, ⟨78, _⟩ => ⟨S2048x2, .i32⟩
  | .hbm, ⟨79, _⟩ => ⟨S64x64x64x64, .f32⟩
  | .hbm, ⟨80, _⟩ => ⟨S64x64x64x64, .f32⟩
  | .hbm, ⟨81, _⟩ => ⟨S4096x4096, .f32⟩
  | .hbm, ⟨82, _⟩ => ⟨S4096x4096, .f32⟩
  | .hbm, ⟨83, _⟩ => ⟨S8192x4096, .f32⟩
  | .hbm, ⟨84, _⟩ => ⟨S1x4096, .f32⟩
  | .hbm, ⟨85, _⟩ => ⟨S8192x4096, .f32⟩
  | .hbm, ⟨86, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_call2_call0_c : Ref sig .tc := ⟨.hbm, 16, rfl⟩
abbrev main_call2_call0_v0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_call3_call0_c : Ref sig .tc := ⟨.hbm, 32, rfl⟩
abbrev main_call3_call0_v0 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_call4_c : Ref sig .tc := ⟨.hbm, 38, rfl⟩
abbrev main_call4_v0 : Ref sig .tc := ⟨.hbm, 39, rfl⟩
abbrev main_call4_v1 : Ref sig .tc := ⟨.hbm, 40, rfl⟩
abbrev main_call4_c_0 : Ref sig .tc := ⟨.hbm, 41, rfl⟩
abbrev main_call4_v2 : Ref sig .tc := ⟨.hbm, 42, rfl⟩
abbrev main_call4_v3 : Ref sig .tc := ⟨.hbm, 43, rfl⟩
abbrev main_call4_v4 : Ref sig .tc := ⟨.hbm, 44, rfl⟩
abbrev main_call4_v5 : Ref sig .tc := ⟨.hbm, 45, rfl⟩
abbrev main_call4_c_1 : Ref sig .tc := ⟨.hbm, 46, rfl⟩
abbrev main_call4_c_2 : Ref sig .tc := ⟨.hbm, 47, rfl⟩
abbrev main_call4_v6 : Ref sig .tc := ⟨.hbm, 48, rfl⟩
abbrev main_call4_v7 : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_v11 : Ref sig .tc := ⟨.hbm, 53, rfl⟩
abbrev main_call4_c_3 : Ref sig .tc := ⟨.hbm, 54, rfl⟩
abbrev main_call4_v12 : Ref sig .tc := ⟨.hbm, 55, rfl⟩
abbrev main_call4_v13 : Ref sig .tc := ⟨.hbm, 56, rfl⟩
abbrev main_call4_c_4 : Ref sig .tc := ⟨.hbm, 57, rfl⟩
abbrev main_call4_v14 : Ref sig .tc := ⟨.hbm, 58, rfl⟩
abbrev main_v18 : Ref sig .tc := ⟨.hbm, 59, rfl⟩
abbrev main_cst : Ref sig .tc := ⟨.hbm, 60, rfl⟩
abbrev main_v19 : Ref sig .tc := ⟨.hbm, 61, rfl⟩
abbrev main_c_6 : Ref sig .tc := ⟨.hbm, 62, rfl⟩
abbrev main_v20 : Ref sig .tc := ⟨.hbm, 63, rfl⟩
abbrev main_v21 : Ref sig .tc := ⟨.hbm, 64, rfl⟩
abbrev main_c_7 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_8 : Ref sig .tc := ⟨.hbm, 69, rfl⟩
abbrev main_v25 : Ref sig .tc := ⟨.hbm, 70, rfl⟩
abbrev main_v26 : Ref sig .tc := ⟨.hbm, 71, rfl⟩
abbrev main_c_9 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]

class Facts₀ : Prop where
  slices_S65_S64_1 : S65.Slices ![1] S64
  slices_S65_S64_0 : S65.Slices ![0] S64
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S_S64x64x64x64 : S_.BroadcastsInDim S64x64x64x64 (![] : Fin 0 → Fin S64x64x64x64.rank)
  concatenates_S2048x1_S2048x1_S2048x2_d1 : Shape.Concatenates [S2048x1, S2048x1] S2048x2 1
  transposes_S64x64x64x64_S64x64x64x64_0_2_1_3 : S64x64x64x64.Transposes [0, 2, 1, 3] S64x64x64x64
  shapeCasts_S64x64x64x64_S4096x4096 : S64x64x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  scatter_S64x64x64x64_S2048x2_S2048x64x64_12_01_01_1_wf : ScatterDims.WF S64x64x64x64 S2048x2 S2048x64x64 [1, 2] [0, 1] [0, 1] 1
  dot_S8192x4096_S4096x4096_S8192x4096_1_0_0_1_n_n_wf : DotDims.WF S8192x4096 S4096x4096 S8192x4096 [1] [0] [0] [1] [] []

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def scatter_S64x64x64x64_S2048x2_S2048x64x64_12_01_01_1 : ScatterDims S64x64x64x64 S2048x2 S2048x64x64 where
  updateWindowDims := [1, 2]
  insertedWindowDims := [0, 1]
  scatterDimsToOperandDims := [0, 1]
  indexVectorDim := 1
  wf := scatter_S64x64x64x64_S2048x2_S2048x64x64_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.KernelPayloads.lean ====
/-
  The body's three stored values, read at an index on the extended reals.

  The body keeps a running [1024, 1024] block of partial inner products. Its three stores write: the zero block; the
  running block plus the product of the current [1024, 1024] blocks of the two factors, whose entry (p, f) is the
  inner product over the 1024 positions d of the left block's row p with the right block's column f; and, once per
  output block, the running block plus the bias row, entry f of the bias added to every row.
-/
import proofs.«139480_j64639257805130_1_alg».proof.Proof.Gen.KernelIdeal.Skeleton
import proofs.«139480_j64639257805130_1_alg».proof.Proof.LibInnerProducts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- The first store writes the zero block. -/
theorem zero_block_apply (p f : Fin 1024) : k0_pay1 (F := Ideal) (ix2 p f) = 0 := by
  unfold k0_pay1
  simp only [shapeCast_self]
  exact Ideal.ofBits_zero_f32

/-- The second store writes the running block plus the product of the two current blocks. -/
theorem accumulate_apply (acc : Vec Ideal S1024x1024 .f32) (a w : Vec Ideal S1024x1024 .bf16) (p f : Fin 1024) :
    k0_pay2 (F := Ideal) acc a w (ix2 p f) = acc (ix2 p f) + ∑ d : Fin 1024, a (ix2 p d) * w (ix2 d f) := by
  unfold k0_pay2
  simp only [shapeCast_self]
  rw [addf_apply]
  refine congrArg (acc (ix2 p f) + ·) ?_
  exact Idealize.ShloMosaic.InnerProducts.matmul_zero_apply _ rfl none a w p f

/-- The third store writes the running block plus the bias row. -/
theorem add_bias_apply (acc : Vec Ideal S1024x1024 .f32) (b : Vec Ideal S1024 .f32) (p f : Fin 1024) :
    k0_pay3 (F := Ideal) acc b (ix2 p f) = acc (ix2 p f) + b (ix1 f) := by
  unfold k0_pay3
  rw [addf_apply]
  refine congrArg (acc (ix2 p f) + ·) ?_
  rw [broadcastTo_1b_ab_apply, shapeCast_a_1a_apply]

end Cert.KernelIdeal.Payloads

end
-- ==== Proof.KernelPieces.lean ====
/-
  What one run of the body leaves behind, case by case, as the body's stored values.

  The body runs in three ways. At the first point of an output block's run it zeroes the running block and then adds the
  first product; at the middle points it adds a product to what the point before left; at the last point it adds the
  last product and stores the running block plus the bias row into the output block. Each store writes its buffer
  whole, so what a buffer holds afterwards is the value of the last store into it, and a load of the running block
  after a store reads that store's value back.
-/
import proofs.«139480_j64639257805130_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The rank-2 and rank-1 zero offsets, as the constant-zero function. -/
theorem zeros2 : (![0, 0] : Fin S1024x1024.rank → ℕ) = fun _ => 0 := by
  funext a; match a with | ⟨0, _⟩ => rfl | ⟨1, _⟩ => rfl
theorem zeros1 : (![0] : Fin S1024.rank → ℕ) = fun _ => 0 := by
  funext a; match a with | ⟨0, _⟩ => rfl

/-- First point of a run: the running block ends at the zero block plus the first product. -/
theorem running_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero zeros2]
  simp only [View.readAt_eq_ld, harg3.read_unread, harg4.read_unread, View.ld_unit_zero (S := S1024x1024) zeros2]
  rw [View.readCov_unit_zero (S := S1024x1024) arg7.view zeros2]

/-- A middle point: the running block ends at what the point before left plus this point's product. -/
theorem running_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zeros2]
  simp only [View.readAt_eq_ld, harg3.read_unread, harg4.read_unread, harg7.read_unread,
    View.ld_unit_zero (S := S1024x1024) zeros2]

/-- The last point: the running block likewise, -/
theorem running_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zeros2]
  simp only [View.readAt_eq_ld, harg3.read_unread, harg4.read_unread, harg7.read_unread,
    View.ld_unit_zero (S := S1024x1024) zeros2]

/-- and the output block: that running block plus the bias row. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zeros2]
  simp only [View.readAt_eq_ld, harg3.read_unread, harg4.read_unread, harg5.read_unread, harg7.read_unread,
    View.ld_unit_zero (S := S1024x1024) zeros2, View.ld_unit_zero (S := S1024) zeros1]
  rw [View.readCov_unit_zero (S := S1024x1024) arg7.view zeros2]

end Cert.KernelIdeal.Pieces

end
-- ==== Proof.KernelFold.lean ====
/-
  One output block's run: what the running block and the output block hold, entry by entry.

  The 128 grid points are taken in the order t = (4·i + j)·4 + s: output block (i, j) = (t / 16, t / 4 % 4) is met
  along the four consecutive points s = t % 4 = 0, 1, 2, 3. At point t the left factor's block is block (i, s) of
  x, the right factor's block is block (s, j) of the weight matrix and the bias block is block j of the bias. The running
  block is reset at s = 0 and stepped at s = 1, 2, 3, so after the run it holds, at (p, f), zero plus the four partial
  inner products; at s = 3 the output block is that plus the bias entry.
-/
import proofs.«139480_j64639257805130_1_alg».proof.Proof.Gen.KernelIdeal.Value
import proofs.«139480_j64639257805130_1_alg».proof.Proof.KernelPayloads
import proofs.«139480_j64639257805130_1_alg».proof.Proof.KernelPieces
import Idealize.ShloMosaic.Lib.Pipeline.Value
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- Which block of its array each window shows at point t — decided over the 128 points. -/
theorem index_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The three input blocks at point t, as vectors of the literal block shapes. -/
abbrev leftAt (c : Dev nD) (t : Fin cfg0.N) : Vec Ideal S1024x1024 .bf16 := iblk m c 0 t
abbrev rightAt (c : Dev nD) (t : Fin cfg0.N) : Vec Ideal S1024x1024 .bf16 := iblk m c 1 t
abbrev biasAt (c : Dev nD) (t : Fin cfg0.N) : Vec Ideal S1024 .f32 := iblk m c 2 t

/-- Where a block's entry sits in its array: the block's index on an axis times 1024, plus the coordinate inside. -/
theorem left_emb (t : Fin cfg0.N) (p d : Fin 1024) (P : Fin 8192) (K : Fin 4096)
    (hP : P.val = t.val / 16 * 1024 + p.val) (hK : K.val = t.val % 4 * 1024 + d.val) :
    ((cfg0.win 0).blk t).view.emb (ix2 p d) = ix2 P K := by
  obtain ⟨e0, e1, -⟩ := index_facts t
  refine funext fun a => Fin.ext ?_
  match a with
  | ⟨0, _⟩ => show win0_0.index t (0 : Fin 2) * 1024 + 1 * p.val = P.val; rw [e0, hP]; omega
  | ⟨1, _⟩ => show win0_0.index t (1 : Fin 2) * 1024 + 1 * d.val = K.val; rw [e1, hK]; omega

theorem right_emb (t : Fin cfg0.N) (d f : Fin 1024) (K Q : Fin 4096)
    (hK : K.val = t.val % 4 * 1024 + d.val) (hQ : Q.val = t.val / 4 % 4 * 1024 + f.val) :
    ((cfg0.win 1).blk t).view.emb (ix2 d f) = ix2 K Q := by
  obtain ⟨-, -, e0, e1, -⟩ := index_facts t
  refine funext fun a => Fin.ext ?_
  match a with
  | ⟨0, _⟩ => show win0_1.index t (0 : Fin 2) * 1024 + 1 * d.val = K.val; rw [e0, hK]; omega
  | ⟨1, _⟩ => show win0_1.index t (1 : Fin 2) * 1024 + 1 * f.val = Q.val; rw [e1, hQ]; omega

theorem bias_emb (t : Fin cfg0.N) (f : Fin 1024) (Q : Fin 4096) (hQ : Q.val = t.val / 4 % 4 * 1024 + f.val) :
    ((cfg0.win 2).blk t).view.emb (ix1 f) = ix1 Q := by
  obtain ⟨-, -, -, -, e0, -⟩ := index_facts t
  refine funext fun a => Fin.ext ?_
  match a with
  | ⟨0, _⟩ => show win0_2.index t (0 : Fin 1) * 1024 + 1 * f.val = Q.val; rw [e0, hQ]; omega

/-- A block of ANY array read at an entry is the array at that place (stated for an arbitrary array, so that the
    arrays the host operations produce are never opened). -/
theorem left_read (t : Fin cfg0.N) (X : S8192x4096.Idx → Elt Ideal .bf16) (p d : Fin 1024) (P : Fin 8192) (K : Fin 4096)
    (hP : P.val = t.val / 16 * 1024 + p.val) (hK : K.val = t.val % 4 * 1024 + d.val) :
    ((cfg0.win 0).blk t).view.read (Elt Ideal) X (ix2 p d) = X (ix2 P K) := by
  rw [View.read_apply]
  exact congrArg X (left_emb t p d P K hP hK)

theorem right_read (t : Fin cfg0.N) (W : S4096x4096.Idx → Elt Ideal .bf16) (d f : Fin 1024) (K Q : Fin 4096)
    (hK : K.val = t.val % 4 * 1024 + d.val) (hQ : Q.val = t.val / 4 % 4 * 1024 + f.val) :
    ((cfg0.win 1).blk t).view.read (Elt Ideal) W (ix2 d f) = W (ix2 K Q) := by
  rw [View.read_apply]
  exact congrArg W (right_emb t d f K Q hK hQ)

theorem bias_read (t : Fin cfg0.N) (B : S4096.Idx → Elt Ideal .f32) (f : Fin 1024) (Q : Fin 4096)
    (hQ : Q.val = t.val / 4 % 4 * 1024 + f.val) :
    ((cfg0.win 2).blk t).view.read (Elt Ideal) B (ix1 f) = B (ix1 Q) := by
  rw [View.read_apply]
  exact congrArg B (bias_emb t f Q hQ)

/-- The left factor's block at point t, at (p, d), is the left factor at (1024·(t / 16) + p, 1024·(t % 4) + d). -/
theorem left_block (c : Dev nD) (t : Fin cfg0.N) (p d : Fin 1024) (P : Fin 8192) (K : Fin 4096)
    (hP : P.val = t.val / 16 * 1024 + p.val) (hK : K.val = t.val % 4 * 1024 + d.val) :
    leftAt m c t (ix2 p d) = V m c main_v36 (ix2 P K) :=
  left_read t (V m c main_v36) p d P K hP hK

/-- The right factor's block at point t, at (d, f), is the right factor at (1024·(t % 4) + d, 1024·(t / 4 % 4) + f). -/
theorem right_block (c : Dev nD) (t : Fin cfg0.N) (d f : Fin 1024) (K Q : Fin 4096)
    (hK : K.val = t.val % 4 * 1024 + d.val) (hQ : Q.val = t.val / 4 % 4 * 1024 + f.val) :
    rightAt m c t (ix2 d f) = V m c main_v37 (ix2 K Q) :=
  right_read t (V m c main_v37) d f K Q hK hQ

/-- The bias block at point t, at f, is the bias at 1024·(t / 4 % 4) + f. -/
theorem bias_block (c : Dev nD) (t : Fin cfg0.N) (f : Fin 1024) (Q : Fin 4096)
    (hQ : Q.val = t.val / 4 % 4 * 1024 + f.val) :
    biasAt m c t (ix1 f) = V m c main_arg2 (ix1 Q) :=
  bias_read t (V m c main_arg2) f Q hQ

/-- Point n's partial inner product at entry q of the block: row q 0 of the left block against column q 1 of the right
    block (zero past the grid, where nothing is asked of it). -/
def partialAt (c : Dev nD) (n : ℕ) (q : S1024x1024.Idx) : EReal :=
  if h : n < cfg0.N then
    ∑ d : Fin 1024, leftAt m c ⟨n, h⟩ (ix2 (q 0) d) * rightAt m c ⟨n, h⟩ (ix2 d (q 1))
  else 0

/-- At the first point of a run the running block ends at zero plus that point's partial product, -/
theorem reset_apply (c : Dev nD) (n : ℕ) (hb : n < cfg0.N) (hn : n % 4 = 0) (acc : Vec Ideal S1024x1024 .f32)
    (q : S1024x1024.Idx) : Value.scAt0_0 m c n hb acc q = 0 + partialAt m c n q := by
  obtain ⟨p, f, rfl⟩ : ∃ (p f : Fin 1024), q = ix2 p f := ⟨q 0, q 1, eq_ix2 q⟩
  unfold Value.scAt0_0
  rw [dif_pos hn, dif_neg (by omega), Pieces.running_first, Payloads.accumulate_apply, Payloads.zero_block_apply]
  unfold partialAt
  rw [dif_pos hb]

/-- and at every later point of the run at what the point before left plus that point's partial product. -/
theorem step_apply (c : Dev nD) (n : ℕ) (hb : n < cfg0.N) (hn : ¬n % 4 = 0) (acc : Vec Ideal S1024x1024 .f32)
    (q : S1024x1024.Idx) : Value.scAt0_0 m c n hb acc q = acc q + partialAt m c n q := by
  obtain ⟨p, f, rfl⟩ : ∃ (p f : Fin 1024), q = ix2 p f := ⟨q 0, q 1, eq_ix2 q⟩
  unfold Value.scAt0_0
  rw [dif_neg hn]
  by_cases h3 : n % 4 = 3
  · rw [dif_pos h3, Pieces.running_last, Payloads.accumulate_apply]
    unfold partialAt
    rw [dif_pos hb]
  · rw [dif_neg h3, Pieces.running_middle, Payloads.accumulate_apply]
    unfold partialAt
    rw [dif_pos hb]

/-- After the last point of a run the running block holds zero plus the run's four partial products. -/
theorem running_block (c : Dev nD) (t : Fin cfg0.N) (ht : t.val % 4 = 3) (q : S1024x1024.Idx) :
    (outsAt0 m c t.val t.isLt).2 q = 0 + ∑ s ∈ Finset.range 4, partialAt m c (4 * (t.val / 4) + s) q := by
  rw [Value.soutsAt0_0_eq]
  have key := Pipeline.accAt_add_apply (β := EReal)
    (fun n h => Value.scAt0_0 m c n h (VS0_0.read (Elt Ideal) VS0_0.junk)) (Value.scAt0_0 m c)
    (fun _ => 0) (partialAt m c) (4 * (t.val / 4)) 3
    (fun h i => reset_apply m c _ h (Nat.mul_mod_right 4 _) _ i)
    (fun n h acc i h1 h2 => step_apply m c n h (by omega) acc i)
    (t.val % 4) (by omega) (by have h1 := t.isLt; have h2 := Nat.div_add_mod t.val 4; omega) q
  rw [key, ht]

/-- At the last point of a run the output block holds the running block plus the bias block's row. -/
theorem output_block (c : Dev nD) (t : Fin cfg0.N) (ht : t.val % 4 = 3) (p f : Fin 1024) :
    (outsAt0 m c t.val t.isLt).1 (ix2 p f)
      = (outsAt0 m c t.val t.isLt).2 (ix2 p f) + biasAt m c t (ix1 f) := by
  rw [outsAt0_C m c t (by omega) ht]
  dsimp only
  rw [Pieces.output_last, Pieces.running_last, Payloads.add_bias_apply]

end Cert.KernelIdeal.Fold

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.Spec.lean ====
/-
  The linear layer as one function of its arrays, and the blocked accumulation that computes it.

  For x of shape [8192, 4096], a weight matrix WT of shape [4096, 4096] and a bias of length 4096 the result is
      out (P, Q) = (sum over k < 4096 of x (P, k) · WT (k, Q)) + bias Q.
  The tiled computation splits P = 1024·i + p and Q = 1024·j + f, cuts the 4096 positions k into four runs of 1024, and
  starting from zero adds the four partial inner products one after the other, then the bias. On the extended reals
  addition is commutative and associative (nothing else is used: no product is moved across a sum), so the four partial
  sums are the whole sum, and zero plus it is it.
-/
import proofs.«139480_j64639257805130_1_alg».proof.Proof.LibBlockedSum
import Idealize.ShloMosaic.PureOps.Ideal
import Idealize.ShloMosaic.Lib.ValueIdx

noncomputable section

namespace Cert.Spec

open Idealize.ShloMosaic Idealize.ShloMosaic.ValueIdx
open scoped BigOperators

/-- The result: the inner product of row P of x with column Q of WT, plus entry Q of the bias. -/
def G (x : (⟨2, ![8192, 4096]⟩ : Shape).Idx → EReal) (wT : (⟨2, ![4096, 4096]⟩ : Shape).Idx → EReal)
    (bias : (⟨1, ![4096]⟩ : Shape).Idx → EReal) : (⟨2, ![8192, 4096]⟩ : Shape).Idx → EReal :=
  fun q => (∑ k : Fin 4096, x (ix2 (q 0) k) * wT (ix2 k (q 1))) + bias (ix1 (q 1))

theorem G_apply (x : (⟨2, ![8192, 4096]⟩ : Shape).Idx → EReal) (wT : (⟨2, ![4096, 4096]⟩ : Shape).Idx → EReal)
    (bias : (⟨1, ![4096]⟩ : Shape).Idx → EReal) (P : Fin 8192) (Q : Fin 4096) :
    G x wT bias (ix2 P Q) = (∑ k : Fin 4096, x (ix2 P k) * wT (ix2 k Q)) + bias (ix1 Q) := rfl

/-- Zero, plus the four partial inner products met along one output block's run, plus the bias entry, is the result
    at the output block's entry — when partial product s is the inner product over the positions 1024·s + d, d < 1024,
    and the bias entry is the bias at Q. -/
theorem blocked_entry (x : (⟨2, ![8192, 4096]⟩ : Shape).Idx → EReal) (wT : (⟨2, ![4096, 4096]⟩ : Shape).Idx → EReal)
    (bias : (⟨1, ![4096]⟩ : Shape).Idx → EReal) (P : Fin 8192) (Q : Fin 4096) (part : ℕ → EReal) (b : EReal)
    (hpart : ∀ (s : ℕ) (hs : s < 4), part s = ∑ d : Fin 1024,
      x (ix2 P ⟨1024 * s + d.val, by have := d.isLt; omega⟩) * wT (ix2 ⟨1024 * s + d.val, by have := d.isLt; omega⟩ Q))
    (hb : b = bias (ix1 Q)) :
    (0 + ∑ s ∈ Finset.range 4, part s) + b = G x wT bias (ix2 P Q) := by
  rw [G_apply, zero_add, hb]
  refine congrArg (· + bias (ix1 Q)) ?_
  have e := Cert.LibBlockedSum.sum_range_blocks 4 1024
    (fun k => if h : k < 4096 then x (ix2 P ⟨k, h⟩) * wT (ix2 ⟨k, h⟩ Q) else 0)
  refine Eq.trans (Finset.sum_congr rfl fun s hs => ?_) (e.trans ?_)
  · have hs4 : s < 4 := Finset.mem_range.mp hs
    rw [hpart s hs4]
    refine Finset.sum_congr rfl fun d _ => ?_
    have hd := d.isLt
    show _ = dite (1024 * s + d.val < 4096) _ _
    rw [dif_pos (by omega)]
  · refine Finset.sum_congr rfl fun k _ => ?_
    show dite (k.val < 4096) _ _ = _
    rw [dif_pos k.isLt]

end Cert.Spec

end
-- ==== Proof.KernelWhole.lean ====
/-
  From the output blocks to the whole result array.

  Output block (i, j) is written back once, after the last point t = (4·i + j)·4 + 3 of its run, and then holds at
  (p, f) the result at (1024·i + p, 1024·j + f). Every entry of the [8192, 4096] result lies in exactly one such block,
  so after the run the result array is the result function at every index.

  The two factors and the bias enter as arbitrary arrays X, W, B together with the statements that they are what the
  region finds in its three input arrays: nothing here depends on how the host operations produced them.
-/
import proofs.«139480_j64639257805130_1_alg».proof.Proof.KernelFold
import proofs.«139480_j64639257805130_1_alg».proof.Proof.Spec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- At the last point of a run the output block's entry (p, f) is the result at the entry's place in the array. -/
theorem block_entry (c : Dev nD) (X : S8192x4096.Idx → EReal) (W : S4096x4096.Idx → EReal) (B : S4096.Idx → EReal)
    (hX : V m c main_v36 = X) (hW : V m c main_v37 = W) (hB : V m c main_arg2 = B)
    (t : Fin cfg0.N) (ht : t.val % 4 = 3) (p f : Fin 1024) (P : Fin 8192) (Q : Fin 4096)
    (hP : P.val = t.val / 16 * 1024 + p.val) (hQ : Q.val = t.val / 4 % 4 * 1024 + f.val) :
    (outsAt0 m c t.val t.isLt).1 (ix2 p f) = Cert.Spec.G X W B (ix2 P Q) := by
  have hN : cfg0.N = 128 := N_0
  have htl := t.isLt
  rw [Fold.output_block m c t ht p f, Fold.running_block m c t ht (ix2 p f)]
  refine Cert.Spec.blocked_entry X W B P Q (fun s => Fold.partialAt m c (4 * (t.val / 4) + s) (ix2 p f)) _
    (fun s hs => ?_) ((Fold.bias_block m c t f Q hQ).trans (congrFun hB _))
  have hlt : 4 * (t.val / 4) + s < cfg0.N := by omega
  show Fold.partialAt m c (4 * (t.val / 4) + s) (ix2 p f) = _
  unfold Fold.partialAt
  rw [dif_pos hlt]
  refine Finset.sum_congr rfl fun d _ => ?_
  have hd := d.isLt
  show Fold.leftAt m c ⟨4 * (t.val / 4) + s, hlt⟩ (ix2 p d) * Fold.rightAt m c ⟨4 * (t.val / 4) + s, hlt⟩ (ix2 d f) = _
  rw [Fold.left_block m c ⟨4 * (t.val / 4) + s, hlt⟩ p d P ⟨1024 * s + d.val, by omega⟩
      (by show P.val = (4 * (t.val / 4) + s) / 16 * 1024 + p.val; omega)
      (by show 1024 * s + d.val = (4 * (t.val / 4) + s) % 4 * 1024 + d.val; omega),
    Fold.right_block m c ⟨4 * (t.val / 4) + s, hlt⟩ d f ⟨1024 * s + d.val, by omega⟩ Q
      (by show 1024 * s + d.val = (4 * (t.val / 4) + s) % 4 * 1024 + d.val; omega)
      (by show Q.val = (4 * (t.val / 4) + s) / 4 % 4 * 1024 + f.val; omega)]
  exact congrArg₂ (· * ·) (congrFun hX _) (congrFun hW _)

/-- Where an output block's entry sits in the result array. -/
theorem out_emb (t : Fin cfg0.N) (p f : Fin 1024) (P : Fin 8192) (Q : Fin 4096)
    (hP : P.val = t.val / 16 * 1024 + p.val) (hQ : Q.val = t.val / 4 % 4 * 1024 + f.val) :
    ((cfg0.win 3).blk t).view.emb (ix2 p f) = ix2 P Q := by
  obtain ⟨-, -, -, -, -, e0, e1⟩ := Fold.index_facts t
  refine funext fun a => Fin.ext ?_
  match a with
  | ⟨0, _⟩ => show win0_3.index t (0 : Fin 2) * 1024 + 1 * p.val = P.val; rw [e0, hP]; omega
  | ⟨1, _⟩ => show win0_3.index t (1 : Fin 2) * 1024 + 1 * f.val = Q.val; rw [e1, hQ]; omega

/-- What a writing-back point writes back is its block of the result function. -/
theorem flushed_eq (c : Dev nD) (X : S8192x4096.Idx → EReal) (W : S4096x4096.Idx → EReal) (B : S4096.Idx → EReal)
    (hX : V m c main_v36 = X) (hW : V m c main_v37 = W) (hB : V m c main_arg2 = B)
    (t : Fin cfg0.N) (hf : (cfg0.win 3).flush t = true) :
    (dats m 0 c).flushed 3 t = ((cfg0.win 3).blk t).view.read (Elt Ideal) (Cert.Spec.G X W B) := by
  have ht : t.val % 4 = 3 := (flush0_3 t).mp hf
  have hN : cfg0.N = 128 := N_0
  have htl := t.isLt
  rw [Value.flushed3]
  funext j
  revert j
  show ∀ j : S1024x1024.Idx, (outsAt0 m c t.val t.isLt).1 j = ((cfg0.win 3).blk t).view.read (Elt Ideal) (Cert.Spec.G X W B) j
  intro j
  obtain ⟨p, f, rfl⟩ : ∃ (p f : Fin 1024), j = ix2 p f := ⟨j 0, j 1, eq_ix2 j⟩
  have hp := p.isLt
  have hq := f.isLt
  rw [View.read_apply,
    out_emb t p f ⟨t.val / 16 * 1024 + p.val, by omega⟩ ⟨t.val / 4 % 4 * 1024 + f.val, by omega⟩ rfl rfl]
  exact block_entry m c X W B hX hW hB t ht p f _ _ rfl rfl

/-- An index of the result array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v38).slice (win0_3.rect t)).set ↔ _
  rw [View.set_slice_whole, Rect.mem_set_unit]
  exact Iff.rfl

/-- Every index of the result array is in the block of a writing-back point: the last point of the run of the block
    its row and column fall in. -/
theorem cover (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  have hlt : ((i 0).val / 1024 * 4 + (i 1).val / 1024) * 4 + 3 < cfg0.N := by omega
  refine ⟨⟨((i 0).val / 1024 * 4 + (i 1).val / 1024) * 4 + 3, hlt⟩, (flush0_3 _).mpr (by
    show (((i 0).val / 1024 * 4 + (i 1).val / 1024) * 4 + 3) % 4 = 3; omega), ?_⟩
  rw [mem_blk]
  obtain ⟨-, -, -, -, -, e0, e1⟩ := Fold.index_facts ⟨((i 0).val / 1024 * 4 + (i 1).val / 1024) * 4 + 3, hlt⟩
  intro a
  match a with
  | ⟨0, _⟩ =>
    show win0_3.index _ (0 : Fin 2) * 1024 ≤ (i 0).val ∧ (i 0).val < win0_3.index _ (0 : Fin 2) * 1024 + 1024
    rw [e0]
    show (((i 0).val / 1024 * 4 + (i 1).val / 1024) * 4 + 3) / 16 * 1024 ≤ (i 0).val
      ∧ (i 0).val < (((i 0).val / 1024 * 4 + (i 1).val / 1024) * 4 + 3) / 16 * 1024 + 1024
    omega
  | ⟨1, _⟩ =>
    show win0_3.index _ (1 : Fin 2) * 1024 ≤ (i 1).val ∧ (i 1).val < win0_3.index _ (1 : Fin 2) * 1024 + 1024
    rw [e1]
    show (((i 0).val / 1024 * 4 + (i 1).val / 1024) * 4 + 3) / 4 % 4 * 1024 ≤ (i 1).val
      ∧ (i 1).val < (((i 0).val / 1024 * 4 + (i 1).val / 1024) * 4 + 3) / 4 % 4 * 1024 + 1024
    omega

/-- After the run the result array is the result function of the three arrays the region finds. -/
theorem final (c : Dev nD) (X : S8192x4096.Idx → EReal) (W : S4096x4096.Idx → EReal) (B : S4096.Idx → EReal)
    (hX : V m c main_v36 = X) (hW : V m c main_v37 = W) (hB : V m c main_arg2 = B) :
    (dats m 0 c).arrAt 3 cfg0.N = Cert.Spec.G X W B :=
  (dats m 0 c).arrAt_eq_of_cover 3 (Cert.Spec.G X W B) (fun t hf => flushed_eq m c X W B hX hW hB t hf) cover

end Cert.KernelIdeal.Whole

end
-- ==== Proof.KernelHost.lean ====
/-
  What the region finds in its two computed input arrays.

  Before the tiled computation runs, the host operations expand the block-sparse weights. From the row pointer they form
  the per-row block counts (adjacent differences), the row starts (the counts shifted by one with a leading zero, summed
  up), mark each row start in a vector of 2048 zeros, and sum that up, minus one: the block row of every stored block.
  The block rows, checked against the 64 rows, and the block columns, both wrapped into range, are paired, and the 2048
  value blocks are written at those pairs into a zero [64, 64, 64, 64] array: the block array. Its axes are then
  reordered to (block column, column in block, block row, row in block) and flattened to the [4096, 4096] transposed
  weight matrix. Both that matrix and x are then passed through a change of float format, which does nothing to an
  extended real. The block array is carried as ONE term of the three sparse-format arguments; it is never opened.
-/
import proofs.«139480_j64639257805130_1_alg».proof.Proof.Gen.KernelIdeal.Frame
import Idealize.ShloMosaic.Lib.StableHlo.Run

set_option maxRecDepth 16384

noncomputable section

namespace Cert.KernelIdeal.HostSide

open Cert.KernelIdeal Cert.KernelIdeal.Facts₀ Idealize.ShloMosaic Idealize.ShloMosaic.TcCoe
  Idealize.SL.Sem Idealize.ShloMosaic.StableHlo
open Cert.KernelIdeal.Gen (V hostOps0 hostOps0_1 hostOps0_2 hostOps0_3 hostOps0_4 hostOps0_5 hostOps0_6 hostOps0_7 hostOps0_8
  hostOps0_9)

variable {F : FTy → Type} [FloatOps F]

/-- Two arrays joined along an axis, as a function of the two (the list of pieces kept out of sight). -/
def join2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

theorem join2_fold {α : Type} (t : Shape) (ax : Fin t.rank) (s1 s2 : Shape) (h : Shape.Concatenates [s1, s2] t ax)
    (a : s1.Idx → α) (b : s2.Idx → α) : concatenate t ax [⟨s1, a⟩, ⟨s2, b⟩] h = join2 t ax s1 s2 h a b := rfl

/-- The block array: the composed term of the host operations up to the scatter of the value blocks into the zero
    [64, 64, 64, 64] array, one binding per operation, in program order. -/
noncomputable def wb (vals : (⟨S2048x64x64, .f32⟩ : BufTy).Contents (Elt F)) (crow : (⟨S65, .i32⟩ : BufTy).Contents (Elt F))
    (col : (⟨S2048, .i32⟩ : BufTy).Contents (Elt F)) : (⟨S64x64x64x64, .f32⟩ : BufTy).Contents (Elt F) :=
  have call0_v0 : (⟨S64, .i32⟩ : BufTy).Contents (Elt F) := extractStridedSlice S64 ![1] crow slices_S65_S64_1
  have call0_v1 : (⟨S64, .i32⟩ : BufTy).Contents (Elt F) := extractStridedSlice S64 ![0] crow slices_S65_S64_0
  have v0 : (⟨S64, .i32⟩ : BufTy).Contents (Elt F) := subi call0_v0 call0_v1
  have v1 : (⟨S64, .i32⟩ : BufTy).Contents (Elt F) := iotaInDim S64 32 0
  have call1_v0 : (⟨S1, .i32⟩ : BufTy).Contents (Elt F) := extractStridedSlice S1 ![63] v0 slices_S64_S1_63
  have call1_v1 : (⟨S63, .i32⟩ : BufTy).Contents (Elt F) := extractStridedSlice S63 ![0] v0 slices_S64_S63_0
  have v2 : (⟨S64, .i32⟩ : BufTy).Contents (Elt F) := concatenate S64 0 [⟨S1, call1_v0⟩, ⟨S63, call1_v1⟩] concatenates_S1_S63_S64_d0
  have c : (⟨S_, .i32⟩ : BufTy).Contents (Elt F) := constantI S_ 32 0#32
  have v3 : (⟨S1, .i32⟩ : BufTy).Contents (Elt F) := broadcastInDim S1 ![] bcast_S_S1 c
  have c_0 : (⟨S_, .i32⟩ : BufTy).Contents (Elt F) := constantI S_ 32 0#32
  have v4 : (⟨S64, .i32⟩ : BufTy).Contents (Elt F) := Host.scatter scatter_S64_S1_S__n_0_0_0 (fun _ b => b) v2 v3 c_0
  have call2_call0_c : (⟨S_, .i32⟩ : BufTy).Contents (Elt F) := constantI S_ 32 0#32
  have call2_call0_v0 : (⟨S_, .i32⟩ : BufTy).Contents (Elt F) := broadcastInDim S_ ![] bcast_S_S_ call2_call0_c
  have v5 : (⟨S64, .i32⟩ : BufTy).Contents (Elt F) := Host.reduceWindow IntOp.addi ![64] ![1] ![63] ![0] v4 call2_call0_v0 reduceWindows_S64_S64_w64s1p63_0 h_S_
  have c_1 : (⟨S_, .i32⟩ : BufTy).Contents (Elt F) := constantI S_ 32 0#32
  have v6 : (⟨S2048, .i32⟩ : BufTy).Contents (Elt F) := broadcastInDim S2048 ![] bcast_S_S2048 c_1
  have c_2 : (⟨S_, .i32⟩ : BufTy).Contents (Elt F) := constantI S_ 32 0#32
  have v7 : (⟨S64, .i32⟩ : BufTy).Contents (Elt F) := broadcastInDim S64 ![] bcast_S_S64 c_2
  have v8 : (⟨S64, .i1⟩ : BufTy).Contents (Elt F) := cmpi .slt v5 v7
  have c_3 : (⟨S_, .i32⟩ : BufTy).Contents (Elt F) := constantI S_ 32 2048#32
  have v9 : (⟨S64, .i32⟩ : BufTy).Contents (Elt F) := broadcastInDim S64 ![] bcast_S_S64 c_3
  have v10 : (⟨S64, .i32⟩ : BufTy).Contents (Elt F) := addi v5 v9
  have v11 : (⟨S64, .i32⟩ : BufTy).Contents (Elt F) := select v8 v10 v5
  have v12 : (⟨S64x1, .i32⟩ : BufTy).Contents (Elt F) := broadcastInDim S64x1 ![0] bcast_S64_S64x1_0 v11
  have c_4 : (⟨S_, .i32⟩ : BufTy).Contents (Elt F) := constantI S_ 32 1#32
  have v13 : (⟨S64, .i32⟩ : BufTy).Contents (Elt F) := broadcastInDim S64 ![] bcast_S_S64 c_4
  have v14 : (⟨S2048, .i32⟩ : BufTy).Contents (Elt F) := Host.scatter scatter_S2048_S64x1_S64_n_0_0_1 IntOp.addi v6 v12 v13
  have call3_call0_c : (⟨S_, .i32⟩ : BufTy).Contents (Elt F) := constantI S_ 32 0#32
  have call3_call0_v0 : (⟨S_, .i32⟩ : BufTy).Contents (Elt F) := broadcastInDim S_ ![] bcast_S_S_ call3_call0_c
  have v15 : (⟨S2048, .i32⟩ : BufTy).Contents (Elt F) := Host.reduceWindow IntOp.addi ![2048] ![1] ![2047] ![0] v14 call3_call0_v0 reduceWindows_S2048_S2048_w2048s1p2047_0 h_S_
  have c_5 : (⟨S_, .i32⟩ : BufTy).Contents (Elt F) := constantI S_ 32 1#32
  have v16 : (⟨S2048, .i32⟩ : BufTy).Contents (Elt F) := broadcastInDim S2048 ![] bcast_S_S2048 c_5
  have v17 : (⟨S2048, .i32⟩ : BufTy).Contents (Elt F) := subi v15 v16
  have call4_c : (⟨S_, .i32⟩ : BufTy).Contents (Elt F) := constantI S_ 32 0#32
  have call4_v0 : (⟨S2048, .i32⟩ : BufTy).Contents (Elt F) := broadcastInDim S2048 ![] bcast_S_S2048 call4_c
  have call4_v1 : (⟨S2048, .i1⟩ : BufTy).Contents (Elt F) := cmpi .slt v17 call4_v0
  have call4_c_0 : (⟨S_, .i32⟩ : BufTy).Contents (Elt F) := constantI S_ 32 64#32
  have call4_v2 : (⟨S2048, .i32⟩ : BufTy).Contents (Elt F) := broadcastInDim S2048 ![] bcast_S_S2048 call4_c_0
  have call4_v3 : (⟨S2048, .i32⟩ : BufTy).Contents (Elt F) := addi v17 call4_v2
  have call4_v4 : (⟨S2048, .i32⟩ : BufTy).Contents (Elt F) := select call4_v1 call4_v3 v17
  have call4_v5 : (⟨S2048x1, .i32⟩ : BufTy).Contents (Elt F) := broadcastInDim S2048x1 ![0] bcast_S2048_S2048x1_0 call4_v4
  have call4_c_1 : (⟨S1, .i32⟩ : BufTy).Contents (Elt F) := constantI S1 32 63#32
  have call4_c_2 : (⟨S_, .i32⟩ : BufTy).Contents (Elt F) := constantI S_ 32 0#32
  have call4_v6 : (⟨S2048x1, .i32⟩ : BufTy).Contents (Elt F) := broadcastInDim S2048x1 ![] bcast_S_S2048x1 call4_c_2
  have call4_v7 : (⟨S2048x1, .i1⟩ : BufTy).Contents (Elt F) := cmpi .sge call4_v5 call4_v6
  have call4_v8 : (⟨S1x1, .i32⟩ : BufTy).Contents (Elt F) := broadcastInDim S1x1 ![1] bcast_S1_S1x1_1 call4_c_1
  have call4_v9 : (⟨S2048x1, .i32⟩ : BufTy).Contents (Elt F) := broadcastInDim S2048x1 ![0, 1] bcast_S1x1_S2048x1_0_1 call4_v8
  have call4_v10 : (⟨S2048x1, .i1⟩ : BufTy).Contents (Elt F) := cmpi .sle call4_v5 call4_v9
  have call4_v11 : (⟨S2048x1, .i1⟩ : BufTy).Contents (Elt F) := andi call4_v7 call4_v10
  have call4_c_3 : (⟨S_, .i1⟩ : BufTy).Contents (Elt F) := constantI S_ 1 1#1
  have call4_v12 : (⟨S2048, .i1⟩ : BufTy).Contents (Elt F) := Host.reduce IntOp.andi call4_v11 call4_c_3 reducesTo_S2048x1_S2048_d1 h_S_
  have call4_v13 : (⟨S2048, .i32⟩ : BufTy).Contents (Elt F) := Host.gather gather_S64_S2048x1_S2048_n_0_n_n_0_1_1 v1 call4_v5
  have call4_c_4 : (⟨S_, .i32⟩ : BufTy).Contents (Elt F) := constantI S_ 32 2147483648#32
  have call4_v14 : (⟨S2048, .i32⟩ : BufTy).Contents (Elt F) := broadcastInDim S2048 ![] bcast_S_S2048 call4_c_4
  have v18 : (⟨S2048, .i32⟩ : BufTy).Contents (Elt F) := select call4_v12 call4_v13 call4_v14
  have cst : (⟨S_, .f32⟩ : BufTy).Contents (Elt F) := constant S_ .f32 0x00000000#32
  have v19 : (⟨S64x64x64x64, .f32⟩ : BufTy).Contents (Elt F) := broadcastInDim S64x64x64x64 ![] bcast_S_S64x64x64x64 cst
  have c_6 : (⟨S_, .i32⟩ : BufTy).Contents (Elt F) := constantI S_ 32 0#32
  have v20 : (⟨S2048, .i32⟩ : BufTy).Contents (Elt F) := broadcastInDim S2048 ![] bcast_S_S2048 c_6
  have v21 : (⟨S2048, .i1⟩ : BufTy).Contents (Elt F) := cmpi .slt v18 v20
  have c_7 : (⟨S_, .i32⟩ : BufTy).Contents (Elt F) := constantI S_ 32 64#32
  have v22 : (⟨S2048, .i32⟩ : BufTy).Contents (Elt F) := broadcastInDim S2048 ![] bcast_S_S2048 c_7
  have v23 : (⟨S2048, .i32⟩ : BufTy).Contents (Elt F) := addi v18 v22
  have v24 : (⟨S2048, .i32⟩ : BufTy).Contents (Elt F) := select v21 v23 v18
  have c_8 : (⟨S_, .i32⟩ : BufTy).Contents (Elt F) := constantI S_ 32 0#32
  have v25 : (⟨S2048, .i32⟩ : BufTy).Contents (Elt F) := broadcastInDim S2048 ![] bcast_S_S2048 c_8
  have v26 : (⟨S2048, .i1⟩ : BufTy).Contents (Elt F) := cmpi .slt col v25
  have c_9 : (⟨S_, .i32⟩ : BufTy).Contents (Elt F) := constantI S_ 32 64#32
  have v27 : (⟨S2048, .i32⟩ : BufTy).Contents (Elt F) := broadcastInDim S2048 ![] bcast_S_S2048 c_9
  have v28 : (⟨S2048, .i32⟩ : BufTy).Contents (Elt F) := addi col v27
  have v29 : (⟨S2048, .i32⟩ : BufTy).Contents (Elt F) := select v26 v28 col
  have v30 : (⟨S2048x1, .i32⟩ : BufTy).Contents (Elt F) := broadcastInDim S2048x1 ![0] bcast_S2048_S2048x1_0 v24
  have v31 : (⟨S2048x1, .i32⟩ : BufTy).Contents (Elt F) := broadcastInDim S2048x1 ![0] bcast_S2048_S2048x1_0 v29
  have v32 : (⟨S2048x2, .i32⟩ : BufTy).Contents (Elt F) := concatenate S2048x2 1 [⟨S2048x1, v30⟩, ⟨S2048x1, v31⟩] concatenates_S2048x1_S2048x1_S2048x2_d1
  have v33 : (⟨S64x64x64x64, .f32⟩ : BufTy).Contents (Elt F) := Host.scatter scatter_S64x64x64x64_S2048x2_S2048x64x64_12_01_01_1 (fun _ b => b) v19 v32 vals
  v33

variable (m : (ℓ : Loc nD τ sig) → Buf (Elt F) ℓ)

/-- The left factor the region finds is x after the change of float format. -/
theorem left_array (c : Dev nD) :
    V m c main_v36 = truncf .bf16 (m ((c : Thread nD τ).loc main_arg0)) bitsLt_bf16_f32 := by
  dsimp only [V]
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp

/-- The right factor the region finds is the block array, axes reordered to (block column, column in block, block row,
    row in block), flattened to [4096, 4096], after the change of float format. -/
theorem right_array (c : Dev nD) :
    V m c main_v37 = truncf .bf16
      (shapeCast S4096x4096
        (transpose S64x64x64x64 [1, 3, 0, 2]
          (wb (m ((c : Thread nD τ).loc main_arg1)) (m ((c : Thread nD τ).loc main_arg3)) (m ((c : Thread nD τ).loc main_arg4)))
          transposes_S64x64x64x64_S64x64x64x64_1_3_0_2)
        shapeCasts_S64x64x64x64_S4096x4096)
      bitsLt_bf16_f32 := by
  dsimp only [V]
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  simp (disch := decide) only [after_cons, after_nil,
    nullary_result', unary_result', binary_result', ternary_result', quaternary_result', reshape_result', nary4_result',
    nary_result', unaryIndexed_result', binaryIndexed_result',
    nullary_result_ne', unary_result_ne', binary_result_ne', ternary_result_ne', quaternary_result_ne', reshape_result_ne',
    nary_result_ne', unaryIndexed_result_ne', binaryIndexed_result_ne', join2_fold, TRef.toBuf, TRef.ofBuf, cast_eq]
  rfl

end Cert.KernelIdeal.HostSide

end
-- ==== Proof.KernelRun.lean ====
/-
  The tiled program's run, read as the result function of its arguments.

  The region finds x and the transposed weight matrix after a change of float format, which on the extended reals
  changes nothing, and the bias as launched. So after the run the result array is the result function of x, of the
  block array laid out in transposed order, and of the bias.
-/
import proofs.«139480_j64639257805130_1_alg».proof.Proof.KernelWhole
import proofs.«139480_j64639257805130_1_alg».proof.Proof.KernelHost

noncomputable section

namespace Cert.KernelIdeal.Run

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The transposed weight matrix: the block array with its axes reordered to (block column, column in block, block
    row, row in block), flattened to [4096, 4096]. -/
def weightT (vals : (⟨S2048x64x64, .f32⟩ : BufTy).Contents (Elt Ideal)) (crow : (⟨S65, .i32⟩ : BufTy).Contents (Elt Ideal))
    (col : (⟨S2048, .i32⟩ : BufTy).Contents (Elt Ideal)) : S4096x4096.Idx → EReal :=
  shapeCast S4096x4096
    (transpose S64x64x64x64 [1, 3, 0, 2] (HostSide.wb vals crow col) Facts₀.transposes_S64x64x64x64_S64x64x64x64_1_3_0_2)
    Facts₀.shapeCasts_S64x64x64x64_S4096x4096

/-- A change of float format does nothing to an array of extended reals. -/
theorem format_change {S : Shape} (a : S.Idx → EReal) (h : FTy.bits .bf16 < FTy.bits .f32) :
    (truncf (F := Ideal) (φ := .f32) .bf16 a h : S.Idx → EReal) = a := rfl

/-- The left factor the region finds is x. -/
theorem left_found (c : Dev nD) : (V m c main_v36 : S8192x4096.Idx → EReal) = m ((c : Thread nD τ).loc main_arg0) :=
  (HostSide.left_array m c).trans (format_change _ _)

/-- The right factor the region finds is the transposed weight matrix. -/
theorem right_found (c : Dev nD) : (V m c main_v37 : S4096x4096.Idx → EReal)
    = weightT (m ((c : Thread nD τ).loc main_arg1)) (m ((c : Thread nD τ).loc main_arg3)) (m ((c : Thread nD τ).loc main_arg4)) :=
  (HostSide.right_array m c).trans (format_change _ _)

/-- After the run the result array is the result function of x, the transposed weight matrix and the bias. -/
theorem result_array (c : Dev nD) : (dats m 0 c).arrAt 3 cfg0.N
    = Cert.Spec.G (m ((c : Thread nD τ).loc main_arg0))
        (weightT (m ((c : Thread nD τ).loc main_arg1)) (m ((c : Thread nD τ).loc main_arg3)) (m ((c : Thread nD τ).loc main_arg4)))
        (m ((c : Thread nD τ).loc main_arg2)) :=
  Whole.final m c _ _ _ (left_found m c) (right_found m c) (V_main_arg2 m c)

/-- Every weakly fair execution of the tiled program terminates with the result array at the result function of
    x, the transposed weight matrix and the bias, and the arguments unchanged. -/
theorem run : θ_run defs (onTc (τ := τ) (main (F := Ideal))) ⟨m, fun _ => 0, ρ⟩ fun r => ∀ c : Dev nD,
      r.2.mem ((c : Thread nD τ).loc main_v38)
        = Cert.Spec.G (m ((c : Thread nD τ).loc main_arg0))
            (weightT (m ((c : Thread nD τ).loc main_arg1)) (m ((c : Thread nD τ).loc main_arg3)) (m ((c : Thread nD τ).loc main_arg4)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (Value.run_blocks m ρ)

end Cert.KernelIdeal.Run

end
-- ==== Proof.LibBlockLayout.lean ====
/-
  A [64, 64, 64, 64] array of blocks laid out as a [4096, 4096] matrix, in two ways that agree.

  Let B hold block (r, c) of a block matrix at B (r, c, i, j): entry (i, j) of the block in block row r and block
  column c. The transposed dense matrix WT has WT (c·64 + j, r·64 + i) = B (r, c, i, j). It can be produced directly —
  move the axes to the order (c, j, r, i) and flatten pairs of axes — or by first building the dense matrix
  W (r·64 + i, c·64 + j) = B (r, c, i, j) — axes in the order (r, i, c, j), flattened — and transposing it. Read at an
  index both are B at the four coordinates the flat row and column split into, so the two matrices are equal.
-/
import Idealize.ShloMosaic.Lib.Pipeline.Value
import Idealize.ShloMosaic.Lib.ValueIdx

namespace Cert.LibBlockLayout

open Idealize.ShloMosaic Idealize.ShloMosaic.ValueIdx

variable {α : Type}

/-- Axes reordered to (c, j, r, i) then flattened to [4096, 4096]: entry (c·64 + j, r·64 + i) is B (r, c, i, j). -/
theorem direct_apply (B : (⟨4, ![64, 64, 64, 64]⟩ : Shape).Idx → α)
    (ht : (⟨4, ![64, 64, 64, 64]⟩ : Shape).Transposes [1, 3, 0, 2] ⟨4, ![64, 64, 64, 64]⟩)
    (hc : (⟨4, ![64, 64, 64, 64]⟩ : Shape).ShapeCasts ⟨2, ![4096, 4096]⟩)
    (r c i j : Fin 64) (k f : Fin 4096) (hk : k.val = c.val * 64 + j.val) (hf : f.val = r.val * 64 + i.val) :
    shapeCast ⟨2, ![4096, 4096]⟩ (transpose ⟨4, ![64, 64, 64, 64]⟩ [1, 3, 0, 2] B ht) hc (ix2 k f) = B (ix4 r c i j) := by
  rw [shapeCast_apply _ hc (ix2 k f) (ix4 c j r i) (by
    rw [Shape.rowMajor_val_four, Shape.rowMajor_val_two]
    show ((c.val * 64 + j.val) * 64 + r.val) * 64 + i.val = k.val * 4096 + f.val
    omega)]
  exact transpose_apply _ B ht _ _ fun b => match b with
    | ⟨0, _⟩ => rfl | ⟨1, _⟩ => rfl | ⟨2, _⟩ => rfl | ⟨3, _⟩ => rfl

/-- Axes reordered to (r, i, c, j), flattened to [4096, 4096], then transposed: entry (c·64 + j, r·64 + i) is
    B (r, c, i, j) again. -/
theorem via_dense_apply (B : (⟨4, ![64, 64, 64, 64]⟩ : Shape).Idx → α)
    (ht : (⟨4, ![64, 64, 64, 64]⟩ : Shape).Transposes [0, 2, 1, 3] ⟨4, ![64, 64, 64, 64]⟩)
    (hc : (⟨4, ![64, 64, 64, 64]⟩ : Shape).ShapeCasts ⟨2, ![4096, 4096]⟩)
    (h2 : (⟨2, ![4096, 4096]⟩ : Shape).Transposes [1, 0] ⟨2, ![4096, 4096]⟩)
    (r c i j : Fin 64) (k f : Fin 4096) (hk : k.val = c.val * 64 + j.val) (hf : f.val = r.val * 64 + i.val) :
    transpose ⟨2, ![4096, 4096]⟩ [1, 0]
      (shapeCast ⟨2, ![4096, 4096]⟩ (transpose ⟨4, ![64, 64, 64, 64]⟩ [0, 2, 1, 3] B ht) hc) h2 (ix2 k f)
      = B (ix4 r c i j) := by
  rw [transpose_apply _ _ h2 (ix2 k f) (ix2 f k) fun b => match b with | ⟨0, _⟩ => rfl | ⟨1, _⟩ => rfl]
  rw [shapeCast_apply _ hc (ix2 f k) (ix4 r i c j) (by
    rw [Shape.rowMajor_val_four, Shape.rowMajor_val_two]
    show ((r.val * 64 + i.val) * 64 + c.val) * 64 + j.val = f.val * 4096 + k.val
    omega)]
  exact transpose_apply _ B ht _ _ fun b => match b with
    | ⟨0, _⟩ => rfl | ⟨1, _⟩ => rfl | ⟨2, _⟩ => rfl | ⟨3, _⟩ => rfl

/-- The two layouts are one matrix. -/
theorem direct_eq_via_dense (B : (⟨4, ![64, 64, 64, 64]⟩ : Shape).Idx → α)
    (ht1 : (⟨4, ![64, 64, 64, 64]⟩ : Shape).Transposes [1, 3, 0, 2] ⟨4, ![64, 64, 64, 64]⟩)
    (ht2 : (⟨4, ![64, 64, 64, 64]⟩ : Shape).Transposes [0, 2, 1, 3] ⟨4, ![64, 64, 64, 64]⟩)
    (hc1 hc2 : (⟨4, ![64, 64, 64, 64]⟩ : Shape).ShapeCasts ⟨2, ![4096, 4096]⟩)
    (h2 : (⟨2, ![4096, 4096]⟩ : Shape).Transposes [1, 0] ⟨2, ![4096, 4096]⟩) :
    shapeCast ⟨2, ![4096, 4096]⟩ (transpose ⟨4, ![64, 64, 64, 64]⟩ [1, 3, 0, 2] B ht1) hc1
      = transpose ⟨2, ![4096, 4096]⟩ [1, 0]
          (shapeCast ⟨2, ![4096, 4096]⟩ (transpose ⟨4, ![64, 64, 64, 64]⟩ [0, 2, 1, 3] B ht2) hc2) h2 := by
  funext q
  obtain ⟨k, f, rfl⟩ : ∃ (k f : Fin 4096), q = ix2 k f := ⟨q 0, q 1, eq_ix2 q⟩
  have hk : k.val < 4096 := k.isLt
  have hf : f.val < 4096 := f.isLt
  rw [direct_apply B ht1 hc1 ⟨f.val / 64, by omega⟩ ⟨k.val / 64, by omega⟩ ⟨f.val % 64, by omega⟩ ⟨k.val % 64, by omega⟩ k f
      (by show k.val = k.val / 64 * 64 + k.val % 64; omega) (by show f.val = f.val / 64 * 64 + f.val % 64; omega),
    via_dense_apply B ht2 hc2 h2 ⟨f.val / 64, by omega⟩ ⟨k.val / 64, by omega⟩ ⟨f.val % 64, by omega⟩ ⟨k.val % 64, by omega⟩ k f
      (by show k.val = k.val / 64 * 64 + k.val % 64; omega) (by show f.val = f.val / 64 * 64 + f.val % 64; omega)]

end Cert.LibBlockLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.Bridge.lean ====
/-
  The result function is the reference's formula.

  The reference lays the blocks out as the dense matrix W, transposes it, contracts x with it along the 4096 positions
  and adds the bias broadcast over the rows. Read at (P, Q) this is the sum over k of x (P, k) · WT (k, Q) plus bias Q,
  with WT the transposed dense matrix; and that matrix is the one the tiled computation uses, the blocks laid out
  directly in transposed order (the two layouts agree entry by entry). So the reference's result is the result function
  of x, the directly laid out weight matrix and the bias.
-/
import proofs.«139480_j64639257805130_1_alg».proof.Proof.Spec
import proofs.«139480_j64639257805130_1_alg».proof.Proof.LibBlockLayout
import proofs.«139480_j64639257805130_1_alg».proof.Proof.LibInnerProducts
import proofs.«139480_j64639257805130_1_alg».proof.Proof.LibInDimRow
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx
open scoped BigOperators

/-- The reference's contraction with the transposed dense matrix, plus the broadcast bias, is the result function of
    x, the blocks laid out directly in transposed order, and the bias. -/
theorem reference_formula (x : FVec Ideal ⟨2, ![8192, 4096]⟩ .f32) (B : FVec Ideal ⟨4, ![64, 64, 64, 64]⟩ .f32)
    (bias : FVec Ideal ⟨1, ![4096]⟩ .f32)
    (D : DotDims ⟨2, ![8192, 4096]⟩ ⟨2, ![4096, 4096]⟩ ⟨2, ![8192, 4096]⟩) (hD : D = DotDims.plain 8192 4096 4096)
    (prec : Option ContractPrecision)
    (ht1 : (⟨4, ![64, 64, 64, 64]⟩ : Shape).Transposes [1, 3, 0, 2] ⟨4, ![64, 64, 64, 64]⟩)
    (ht2 : (⟨4, ![64, 64, 64, 64]⟩ : Shape).Transposes [0, 2, 1, 3] ⟨4, ![64, 64, 64, 64]⟩)
    (hc1 hc2 : (⟨4, ![64, 64, 64, 64]⟩ : Shape).ShapeCasts ⟨2, ![4096, 4096]⟩)
    (h2 : (⟨2, ![4096, 4096]⟩ : Shape).Transposes [1, 0] ⟨2, ![4096, 4096]⟩)
    (hb1 : (⟨1, ![4096]⟩ : Shape).BroadcastsInDim ⟨2, ![1, 4096]⟩ ![1])
    (hb2 : (⟨2, ![1, 4096]⟩ : Shape).BroadcastsInDim ⟨2, ![8192, 4096]⟩ ![0, 1]) :
    addf (Host.dotGeneral D prec x
        (transpose ⟨2, ![4096, 4096]⟩ [1, 0]
          (shapeCast ⟨2, ![4096, 4096]⟩ (transpose ⟨4, ![64, 64, 64, 64]⟩ [0, 2, 1, 3] B ht2) hc2) h2))
      (broadcastInDim ⟨2, ![8192, 4096]⟩ ![0, 1] hb2 (broadcastInDim ⟨2, ![1, 4096]⟩ ![1] hb1 bias))
    = Cert.Spec.G x (shapeCast ⟨2, ![4096, 4096]⟩ (transpose ⟨4, ![64, 64, 64, 64]⟩ [1, 3, 0, 2] B ht1) hc1) bias := by
  rw [Cert.LibBlockLayout.direct_eq_via_dense B ht1 ht2 hc1 hc2 h2]
  funext q
  obtain ⟨P, Q, rfl⟩ : ∃ (P : Fin 8192) (Q : Fin 4096), q = ix2 P Q := ⟨q 0, q 1, eq_ix2 q⟩
  rw [Cert.Spec.G_apply, addf_apply, Idealize.ShloMosaic.InnerProducts.dotGeneral_apply D hD prec x _ P Q,
    Cert.LibInDimRow.inDim_1b_ab_apply, Cert.LibInDimRow.inDim_b_1b_apply]

end Cert.Bridge

end
-- ==== Proof.RefOps.lean ====
import proofs.«139480_j64639257805130_1_alg».proof.Proof.Gen.ReferenceIdeal
import Idealize.ShloMosaic.Lib.StableHlo.Run
import Idealize.ShloMosaic.Lib.Pipeline.Regions

/-!
# The run of the reference program

The reference's `@main` is a straight line of host operations, five of them calls of module-local
functions whose bodies are again straight lines.  This module lists all of them in program order
(`ops`, a call's operations at the call site over the buffers that call names), shows that
`@main` is the sequence of that list (`main_eq`), and reads the final contents of the result
buffer back as one pure term of the five arguments (`result`, built on `wb`):

* `wb vals crow col` is the dense `[64, 64, 64, 64]` array of blocks.  From the row pointer
  `crow` (65 entries) it forms the per-row counts (adjacent differences), rolls them by one and
  zeroes the first entry, takes the inclusive prefix sum (the row starts), scatter-adds a one at
  each row start into a zero vector of length 2048 and takes the inclusive prefix sum again minus
  one: the block-row index of every stored block.  These indices are wrapped into range, looked up
  through the identity table `iota`, paired with the (wrapped) block-column indices `col`, and
  the 2048 value blocks `vals` are scattered at those pairs into a zero array.
* `result x vals bias crow col` transposes the middle axes of `wb …`, reads it as a
  `[4096, 4096]` matrix, transposes that, multiplies `x` by it and adds the bias broadcast
  along the rows.
-/

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The dense array of value blocks: the composed term of `@main`'s operations up to and including the
    scatter of the blocks into the zero `[64, 64, 64, 64]` array, one binding per operation, in program order
    (a called function's operations in place of the call, over that call's values). -/
noncomputable def wb (vals : (⟨S2048x64x64, .f32⟩ : BufTy).Contents (Elt F)) (crow : (⟨S65, .i32⟩ : BufTy).Contents (Elt F))
    (col : (⟨S2048, .i32⟩ : BufTy).Contents (Elt F)) : (⟨S64x64x64x64, .f32⟩ : BufTy).Contents (Elt F) :=
  have call0_v0 : (⟨S64, .i32⟩ : BufTy).Contents (Elt F) := extractStridedSlice S64 ![1] crow slices_S65_S64_1
  have call0_v1 : (⟨S64, .i32⟩ : BufTy).Contents (Elt F) := extractStridedSlice S64 ![0] crow slices_S65_S64_0
  have v0 : (⟨S64, .i32⟩ : BufTy).Contents (Elt F) := subi call0_v0 call0_v1
  have v1 : (⟨S64, .i32⟩ : BufTy).Contents (Elt F) := iotaInDim S64 32 0
  have call1_v0 : (⟨S1, .i32⟩ : BufTy).Contents (Elt F) := extractStridedSlice S1 ![63] v0 slices_S64_S1_63
  have call1_v1 : (⟨S63, .i32⟩ : BufTy).Contents (Elt F) := extractStridedSlice S63 ![0] v0 slices_S64_S63_0
  have v2 : (⟨S64, .i32⟩ : BufTy).Contents (Elt F) := concatenate S64 0 [⟨S1, call1_v0⟩, ⟨S63, call1_v1⟩] concatenates_S1_S63_S64_d0
  have c : (⟨S_, .i32⟩ : BufTy).Contents (Elt F) := constantI S_ 32 0#32
  have v3 : (⟨S1, .i32⟩ : BufTy).Contents (Elt F) := broadcastInDim S1 ![] bcast_S_S1 c
  have c_0 : (⟨S_, .i32⟩ : BufTy).Contents (Elt F) := constantI S_ 32 0#32
  have v4 : (⟨S64, .i32⟩ : BufTy).Contents (Elt F) := Host.scatter scatter_S64_S1_S__n_0_0_0 (fun _ b => b) v2 v3 c_0
  have call2_call0_c : (⟨S_, .i32⟩ : BufTy).Contents (Elt F) := constantI S_ 32 0#32
  have call2_call0_v0 : (⟨S_, .i32⟩ : BufTy).Contents (Elt F) := broadcastInDim S_ ![] bcast_S_S_ call2_call0_c
  have v5 : (⟨S64, .i32⟩ : BufTy).Contents (Elt F) := Host.reduceWindow IntOp.addi ![64] ![1] ![63] ![0] v4 call2_call0_v0 reduceWindows_S64_S64_w64s1p63_0 h_S_
  have c_1 : (⟨S_, .i32⟩ : BufTy).Contents (Elt F) := constantI S_ 32 0#32
  have v6 : (⟨S2048, .i32⟩ : BufTy).Contents (Elt F) := broadcastInDim S2048 ![] bcast_S_S2048 c_1
  have c_2 : (⟨S_, .i32⟩ : BufTy).Contents (Elt F) := constantI S_ 32 0#32
  have v7 : (⟨S64, .i32⟩ : BufTy).Contents (Elt F) := broadcastInDim S64 ![] bcast_S_S64 c_2
  have v8 : (⟨S64, .i1⟩ : BufTy).Contents (Elt F) := cmpi .slt v5 v7
  have c_3 : (⟨S_, .i32⟩ : BufTy).Contents (Elt F) := constantI S_ 32 2048#32
  have v9 : (⟨S64, .i32⟩ : BufTy).Contents (Elt F) := broadcastInDim S64 ![] bcast_S_S64 c_3
  have v10 : (⟨S64, .i32⟩ : BufTy).Contents (Elt F) := addi v5 v9
  have v11 : (⟨S64, .i32⟩ : BufTy).Contents (Elt F) := select v8 v10 v5
  have v12 : (⟨S64x1, .i32⟩ : BufTy).Contents (Elt F) := broadcastInDim S64x1 ![0] bcast_S64_S64x1_0 v11
  have c_4 : (⟨S_, .i32⟩ : BufTy).Contents (Elt F) := constantI S_ 32 1#32
  have v13 : (⟨S64, .i32⟩ : BufTy).Contents (Elt F) := broadcastInDim S64 ![] bcast_S_S64 c_4
  have v14 : (⟨S2048, .i32⟩ : BufTy).Contents (Elt F) := Host.scatter scatter_S2048_S64x1_S64_n_0_0_1 IntOp.addi v6 v12 v13
  have call3_call0_c : (⟨S_, .i32⟩ : BufTy).Contents (Elt F) := constantI S_ 32 0#32
  have call3_call0_v0 : (⟨S_, .i32⟩ : BufTy).Contents (Elt F) := broadcastInDim S_ ![] bcast_S_S_ call3_call0_c
  have v15 : (⟨S2048, .i32⟩ : BufTy).Contents (Elt F) := Host.reduceWindow IntOp.addi ![2048] ![1] ![2047] ![0] v14 call3_call0_v0 reduceWindows_S2048_S2048_w2048s1p2047_0 h_S_
  have c_5 : (⟨S_, .i32⟩ : BufTy).Contents (Elt F) := constantI S_ 32 1#32
  have v16 : (⟨S2048, .i32⟩ : BufTy).Contents (Elt F) := broadcastInDim S2048 ![] bcast_S_S2048 c_5
  have v17 : (⟨S2048, .i32⟩ : BufTy).Contents (Elt F) := subi v15 v16
  have call4_c : (⟨S_, .i32⟩ : BufTy).Contents (Elt F) := constantI S_ 32 0#32
  have call4_v0 : (⟨S2048, .i32⟩ : BufTy).Contents (Elt F) := broadcastInDim S2048 ![] bcast_S_S2048 call4_c
  have call4_v1 : (⟨S2048, .i1⟩ : BufTy).Contents (Elt F) := cmpi .slt v17 call4_v0
  have call4_c_0 : (⟨S_, .i32⟩ : BufTy).Contents (Elt F) := constantI S_ 32 64#32
  have call4_v2 : (⟨S2048, .i32⟩ : BufTy).Contents (Elt F) := broadcastInDim S2048 ![] bcast_S_S2048 call4_c_0
  have call4_v3 : (⟨S2048, .i32⟩ : BufTy).Contents (Elt F) := addi v17 call4_v2
  have call4_v4 : (⟨S2048, .i32⟩ : BufTy).Contents (Elt F) := select call4_v1 call4_v3 v17
  have call4_v5 : (⟨S2048x1, .i32⟩ : BufTy).Contents (Elt F) := broadcastInDim S2048x1 ![0] bcast_S2048_S2048x1_0 call4_v4
  have call4_c_1 : (⟨S1, .i32⟩ : BufTy).Contents (Elt F) := constantI S1 32 63#32
  have call4_c_2 : (⟨S_, .i32⟩ : BufTy).Contents (Elt F) := constantI S_ 32 0#32
  have call4_v6 : (⟨S2048x1, .i32⟩ : BufTy).Contents (Elt F) := broadcastInDim S2048x1 ![] bcast_S_S2048x1 call4_c_2
  have call4_v7 : (⟨S2048x1, .i1⟩ : BufTy).Contents (Elt F) := cmpi .sge call4_v5 call4_v6
  have call4_v8 : (⟨S1x1, .i32⟩ : BufTy).Contents (Elt F) := broadcastInDim S1x1 ![1] bcast_S1_S1x1_1 call4_c_1
  have call4_v9 : (⟨S2048x1, .i32⟩ : BufTy).Contents (Elt F) := broadcastInDim S2048x1 ![0, 1] bcast_S1x1_S2048x1_0_1 call4_v8
  have call4_v10 : (⟨S2048x1, .i1⟩ : BufTy).Contents (Elt F) := cmpi .sle call4_v5 call4_v9
  have call4_v11 : (⟨S2048x1, .i1⟩ : BufTy).Contents (Elt F) := andi call4_v7 call4_v10
  have call4_c_3 : (⟨S_, .i1⟩ : BufTy).Contents (Elt F) := constantI S_ 1 1#1
  have call4_v12 : (⟨S2048, .i1⟩ : BufTy).Contents (Elt F) := Host.reduce IntOp.andi call4_v11 call4_c_3 reducesTo_S2048x1_S2048_d1 h_S_
  have call4_v13 : (⟨S2048, .i32⟩ : BufTy).Contents (Elt F) := Host.gather gather_S64_S2048x1_S2048_n_0_n_n_0_1_1 v1 call4_v5
  have call4_c_4 : (⟨S_, .i32⟩ : BufTy).Contents (Elt F) := constantI S_ 32 2147483648#32
  have call4_v14 : (⟨S2048, .i32⟩ : BufTy).Contents (Elt F) := broadcastInDim S2048 ![] bcast_S_S2048 call4_c_4
  have v18 : (⟨S2048, .i32⟩ : BufTy).Contents (Elt F) := select call4_v12 call4_v13 call4_v14
  have cst : (⟨S_, .f32⟩ : BufTy).Contents (Elt F) := constant S_ .f32 0x00000000#32
  have v19 : (⟨S64x64x64x64, .f32⟩ : BufTy).Contents (Elt F) := broadcastInDim S64x64x64x64 ![] bcast_S_S64x64x64x64 cst
  have c_6 : (⟨S_, .i32⟩ : BufTy).Contents (Elt F) := constantI S_ 32 0#32
  have v20 : (⟨S2048, .i32⟩ : BufTy).Contents (Elt F) := broadcastInDim S2048 ![] bcast_S_S2048 c_6
  have v21 : (⟨S2048, .i1⟩ : BufTy).Contents (Elt F) := cmpi .slt v18 v20
  have c_7 : (⟨S_, .i32⟩ : BufTy).Contents (Elt F) := constantI S_ 32 64#32
  have v22 : (⟨S2048, .i32⟩ : BufTy).Contents (Elt F) := broadcastInDim S2048 ![] bcast_S_S2048 c_7
  have v23 : (⟨S2048, .i32⟩ : BufTy).Contents (Elt F) := addi v18 v22
  have v24 : (⟨S2048, .i32⟩ : BufTy).Contents (Elt F) := select v21 v23 v18
  have c_8 : (⟨S_, .i32⟩ : BufTy).Contents (Elt F) := constantI S_ 32 0#32
  have v25 : (⟨S2048, .i32⟩ : BufTy).Contents (Elt F) := broadcastInDim S2048 ![] bcast_S_S2048 c_8
  have v26 : (⟨S2048, .i1⟩ : BufTy).Contents (Elt F) := cmpi .slt col v25
  have c_9 : (⟨S_, .i32⟩ : BufTy).Contents (Elt F) := constantI S_ 32 64#32
  have v27 : (⟨S2048, .i32⟩ : BufTy).Contents (Elt F) := broadcastInDim S2048 ![] bcast_S_S2048 c_9
  have v28 : (⟨S2048, .i32⟩ : BufTy).Contents (Elt F) := addi col v27
  have v29 : (⟨S2048, .i32⟩ : BufTy).Contents (Elt F) := select v26 v28 col
  have v30 : (⟨S2048x1, .i32⟩ : BufTy).Contents (Elt F) := broadcastInDim S2048x1 ![0] bcast_S2048_S2048x1_0 v24
  have v31 : (⟨S2048x1, .i32⟩ : BufTy).Contents (Elt F) := broadcastInDim S2048x1 ![0] bcast_S2048_S2048x1_0 v29
  have v32 : (⟨S2048x2, .i32⟩ : BufTy).Contents (Elt F) := concatenate S2048x2 1 [⟨S2048x1, v30⟩, ⟨S2048x1, v31⟩] concatenates_S2048x1_S2048x1_S2048x2_d1
  have v33 : (⟨S64x64x64x64, .f32⟩ : BufTy).Contents (Elt F) := Host.scatter scatter_S64x64x64x64_S2048x2_S2048x64x64_12_01_01_1 (fun _ b => b) v19 v32 vals
  v33

/-- The result: `x` times the transposed `[4096, 4096]` reading of the block array, plus the bias on every row. -/
noncomputable def result (x : (⟨S8192x4096, .f32⟩ : BufTy).Contents (Elt F)) (vals : (⟨S2048x64x64, .f32⟩ : BufTy).Contents (Elt F))
    (bias : (⟨S4096, .f32⟩ : BufTy).Contents (Elt F)) (crow : (⟨S65, .i32⟩ : BufTy).Contents (Elt F))
    (col : (⟨S2048, .i32⟩ : BufTy).Contents (Elt F)) : (⟨S8192x4096, .f32⟩ : BufTy).Contents (Elt F) :=
  addf
    (Host.dotGeneral dot_S8192x4096_S4096x4096_S8192x4096_1_0_0_1_n_n none x
      (transpose S4096x4096 [1, 0]
        (shapeCast S4096x4096
          (transpose S64x64x64x64 [0, 2, 1, 3] (wb vals crow col) transposes_S64x64x64x64_S64x64x64x64_0_2_1_3)
          shapeCasts_S64x64x64x64_S4096x4096)
        transposes_S4096x4096_S4096x4096_1_0))
    (broadcastInDim S8192x4096 ![0, 1] bcast_S1x4096_S8192x4096_0_1 (broadcastInDim S1x4096 ![1] bcast_S4096_S1x4096_1 bias))

/-- `@main`'s 82 host operations, in order, each call's operations at the call site over the buffers
    that call names. -/
abbrev ops : List (HloOp τ sig (Elt F)) :=
  [ StableHlo.unary main_arg3 main_call0_v0 ((extractStridedSlice S64 ![1] · slices_S65_S64_1) : (⟨S65, .i32⟩ : BufTy).Contents (Elt F) → (⟨S64, .i32⟩ : BufTy).Contents (Elt F)),
    StableHlo.unary main_arg3 main_call0_v1 ((extractStridedSlice S64 ![0] · slices_S65_S64_0) : (⟨S65, .i32⟩ : BufTy).Contents (Elt F) → (⟨S64, .i32⟩ : BufTy).Contents (Elt F)),
    StableHlo.binary main_call0_v0 main_call0_v1 main_v0 (subi : (⟨S64, .i32⟩ : BufTy).Contents (Elt F) → (⟨S64, .i32⟩ : BufTy).Contents (Elt F) → (⟨S64, .i32⟩ : BufTy).Contents (Elt F)),
    StableHlo.nullary main_v1 (iotaInDim S64 32 0),
    StableHlo.unary main_v0 main_call1_v0 ((extractStridedSlice S1 ![63] · slices_S64_S1_63) : (⟨S64, .i32⟩ : BufTy).Contents (Elt F) → (⟨S1, .i32⟩ : BufTy).Contents (Elt F)),
    StableHlo.unary main_v0 main_call1_v1 ((extractStridedSlice S63 ![0] · slices_S64_S63_0) : (⟨S64, .i32⟩ : BufTy).Contents (Elt F) → (⟨S63, .i32⟩ : BufTy).Contents (Elt F)),
    StableHlo.binary main_call1_v0 main_call1_v1 main_v2 ((fun a b => concatenate S64 0 [⟨S1, a⟩, ⟨S63, b⟩] concatenates_S1_S63_S64_d0) : (⟨S1, .i32⟩ : BufTy).Contents (Elt F) → (⟨S63, .i32⟩ : BufTy).Contents (Elt F) → (⟨S64, .i32⟩ : BufTy).Contents (Elt F)),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v2 main_v3 main_c_0 main_v4 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)),
    StableHlo.nullary main_call2_call0_c (constantI S_ 32 0#32),
    StableHlo.unary main_call2_call0_c main_call2_call0_v0 (broadcastInDim S_ ![] bcast_S_S_ : (⟨S_, .i32⟩ : BufTy).Contents (Elt F) → (⟨S_, .i32⟩ : BufTy).Contents (Elt F)),
    StableHlo.binary main_v4 main_call2_call0_v0 main_v5 ((fun x v => Host.reduceWindow IntOp.addi ![64] ![1] ![63] ![0] x v reduceWindows_S64_S64_w64s1p63_0 h_S_) : (⟨S64, .i32⟩ : BufTy).Contents (Elt F) → (⟨S_, .i32⟩ : BufTy).Contents (Elt F) → (⟨S64, .i32⟩ : BufTy).Contents (Elt F)),
    StableHlo.nullary main_c_1 (constantI S_ 32 0#32),
    StableHlo.unary main_c_1 main_v6 (broadcastInDim S2048 ![] bcast_S_S2048 : (⟨S_, .i32⟩ : BufTy).Contents (Elt F) → (⟨S2048, .i32⟩ : BufTy).Contents (Elt F)),
    StableHlo.nullary main_c_2 (constantI S_ 32 0#32),
    StableHlo.unary main_c_2 main_v7 (broadcastInDim S64 ![] bcast_S_S64 : (⟨S_, .i32⟩ : BufTy).Contents (Elt F) → (⟨S64, .i32⟩ : BufTy).Contents (Elt F)),
    StableHlo.binary main_v5 main_v7 main_v8 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 2048#32),
    StableHlo.unary main_c_3 main_v9 (broadcastInDim S64 ![] bcast_S_S64 : (⟨S_, .i32⟩ : BufTy).Contents (Elt F) → (⟨S64, .i32⟩ : BufTy).Contents (Elt F)),
    StableHlo.binary main_v5 main_v9 main_v10 (addi : (⟨S64, .i32⟩ : BufTy).Contents (Elt F) → (⟨S64, .i32⟩ : BufTy).Contents (Elt F) → (⟨S64, .i32⟩ : BufTy).Contents (Elt F)),
    StableHlo.ternary main_v8 main_v10 main_v5 main_v11 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v11 main_v12 (broadcastInDim S64x1 ![0] bcast_S64_S64x1_0 : (⟨S64, .i32⟩ : BufTy).Contents (Elt F) → (⟨S64x1, .i32⟩ : BufTy).Contents (Elt F)),
    StableHlo.nullary main_c_4 (constantI S_ 32 1#32),
    StableHlo.unary main_c_4 main_v13 (broadcastInDim S64 ![] bcast_S_S64 : (⟨S_, .i32⟩ : BufTy).Contents (Elt F) → (⟨S64, .i32⟩ : BufTy).Contents (Elt F)),
    StableHlo.ternary main_v6 main_v12 main_v13 main_v14 ((fun x i u => Host.scatter scatter_S2048_S64x1_S64_n_0_0_1 IntOp.addi x i u) : (⟨S2048, .i32⟩ : BufTy).Contents (Elt F) → (⟨S64x1, .i32⟩ : BufTy).Contents (Elt F) → (⟨S64, .i32⟩ : BufTy).Contents (Elt F) → (⟨S2048, .i32⟩ : BufTy).Contents (Elt F)),
    StableHlo.nullary main_call3_call0_c (constantI S_ 32 0#32),
    StableHlo.unary main_call3_call0_c main_call3_call0_v0 (broadcastInDim S_ ![] bcast_S_S_ : (⟨S_, .i32⟩ : BufTy).Contents (Elt F) → (⟨S_, .i32⟩ : BufTy).Contents (Elt F)),
    StableHlo.binary main_v14 main_call3_call0_v0 main_v15 ((fun x v => Host.reduceWindow IntOp.addi ![2048] ![1] ![2047] ![0] x v reduceWindows_S2048_S2048_w2048s1p2047_0 h_S_) : (⟨S2048, .i32⟩ : BufTy).Contents (Elt F) → (⟨S_, .i32⟩ : BufTy).Contents (Elt F) → (⟨S2048, .i32⟩ : BufTy).Contents (Elt F)),
    StableHlo.nullary main_c_5 (constantI S_ 32 1#32),
    StableHlo.unary main_c_5 main_v16 (broadcastInDim S2048 ![] bcast_S_S2048 : (⟨S_, .i32⟩ : BufTy).Contents (Elt F) → (⟨S2048, .i32⟩ : BufTy).Contents (Elt F)),
    StableHlo.binary main_v15 main_v16 main_v17 (subi : (⟨S2048, .i32⟩ : BufTy).Contents (Elt F) → (⟨S2048, .i32⟩ : BufTy).Contents (Elt F) → (⟨S2048, .i32⟩ : BufTy).Contents (Elt F)),
    StableHlo.nullary main_call4_c (constantI S_ 32 0#32),
    StableHlo.unary main_call4_c main_call4_v0 (broadcastInDim S2048 ![] bcast_S_S2048 : (⟨S_, .i32⟩ : BufTy).Contents (Elt F) → (⟨S2048, .i32⟩ : BufTy).Contents (Elt F)),
    StableHlo.binary main_v17 main_call4_v0 main_call4_v1 (cmpi .slt : (⟨S2048, .i32⟩ : BufTy).Contents (Elt F) → (⟨S2048, .i32⟩ : BufTy).Contents (Elt F) → (⟨S2048, .i1⟩ : BufTy).Contents (Elt F)),
    StableHlo.nullary main_call4_c_0 (constantI S_ 32 64#32),
    StableHlo.unary main_call4_c_0 main_call4_v2 (broadcastInDim S2048 ![] bcast_S_S2048 : (⟨S_, .i32⟩ : BufTy).Contents (Elt F) → (⟨S2048, .i32⟩ : BufTy).Contents (Elt F)),
    StableHlo.binary main_v17 main_call4_v2 main_call4_v3 (addi : (⟨S2048, .i32⟩ : BufTy).Contents (Elt F) → (⟨S2048, .i32⟩ : BufTy).Contents (Elt F) → (⟨S2048, .i32⟩ : BufTy).Contents (Elt F)),
    StableHlo.ternary main_call4_v1 main_call4_v3 main_v17 main_call4_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_call4_v4 main_call4_v5 (broadcastInDim S2048x1 ![0] bcast_S2048_S2048x1_0 : (⟨S2048, .i32⟩ : BufTy).Contents (Elt F) → (⟨S2048x1, .i32⟩ : BufTy).Contents (Elt F)),
    StableHlo.nullary main_call4_c_1 (constantI S1 32 63#32),
    StableHlo.nullary main_call4_c_2 (constantI S_ 32 0#32),
    StableHlo.unary main_call4_c_2 main_call4_v6 (broadcastInDim S2048x1 ![] bcast_S_S2048x1 : (⟨S_, .i32⟩ : BufTy).Contents (Elt F) → (⟨S2048x1, .i32⟩ : BufTy).Contents (Elt F)),
    StableHlo.binary main_call4_v5 main_call4_v6 main_call4_v7 (cmpi .sge : (⟨S2048x1, .i32⟩ : BufTy).Contents (Elt F) → (⟨S2048x1, .i32⟩ : BufTy).Contents (Elt F) → (⟨S2048x1, .i1⟩ : BufTy).Contents (Elt F)),
    StableHlo.unary main_call4_c_1 main_call4_v8 (broadcastInDim S1x1 ![1] bcast_S1_S1x1_1 : (⟨S1, .i32⟩ : BufTy).Contents (Elt F) → (⟨S1x1, .i32⟩ : BufTy).Contents (Elt F)),
    StableHlo.unary main_call4_v8 main_call4_v9 (broadcastInDim S2048x1 ![0, 1] bcast_S1x1_S2048x1_0_1 : (⟨S1x1, .i32⟩ : BufTy).Contents (Elt F) → (⟨S2048x1, .i32⟩ : BufTy).Contents (Elt F)),
    StableHlo.binary main_call4_v5 main_call4_v9 main_call4_v10 (cmpi .sle : (⟨S2048x1, .i32⟩ : BufTy).Contents (Elt F) → (⟨S2048x1, .i32⟩ : BufTy).Contents (Elt F) → (⟨S2048x1, .i1⟩ : BufTy).Contents (Elt F)),
    StableHlo.binary main_call4_v7 main_call4_v10 main_call4_v11 (andi : (⟨S2048x1, .i1⟩ : BufTy).Contents (Elt F) → (⟨S2048x1, .i1⟩ : BufTy).Contents (Elt F) → (⟨S2048x1, .i1⟩ : BufTy).Contents (Elt F)),
    StableHlo.nullary main_call4_c_3 (constantI S_ 1 1#1),
    StableHlo.binary main_call4_v11 main_call4_c_3 main_call4_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
    StableHlo.binary main_v1 main_call4_v5 main_call4_v13 ((fun x i => Host.gather gather_S64_S2048x1_S2048_n_0_n_n_0_1_1 x i) : (⟨S64, .i32⟩ : BufTy).Contents (Elt F) → (⟨S2048x1, .i32⟩ : BufTy).Contents (Elt F) → (⟨S2048, .i32⟩ : BufTy).Contents (Elt F)),
    StableHlo.nullary main_call4_c_4 (constantI S_ 32 2147483648#32),
    StableHlo.unary main_call4_c_4 main_call4_v14 (broadcastInDim S2048 ![] bcast_S_S2048 : (⟨S_, .i32⟩ : BufTy).Contents (Elt F) → (⟨S2048, .i32⟩ : BufTy).Contents (Elt F)),
    StableHlo.ternary main_call4_v12 main_call4_v13 main_call4_v14 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_cst (constant S_ .f32 0x00000000#32),
    StableHlo.unary main_cst main_v19 (broadcastInDim S64x64x64x64 ![] bcast_S_S64x64x64x64 : (⟨S_, .f32⟩ : BufTy).Contents (Elt F) → (⟨S64x64x64x64, .f32⟩ : BufTy).Contents (Elt F)),
    StableHlo.nullary main_c_6 (constantI S_ 32 0#32),
    StableHlo.unary main_c_6 main_v20 (broadcastInDim S2048 ![] bcast_S_S2048 : (⟨S_, .i32⟩ : BufTy).Contents (Elt F) → (⟨S2048, .i32⟩ : BufTy).Contents (Elt F)),
    StableHlo.binary main_v18 main_v20 main_v21 (cmpi .slt : (⟨S2048, .i32⟩ : BufTy).Contents (Elt F) → (⟨S2048, .i32⟩ : BufTy).Contents (Elt F) → (⟨S2048, .i1⟩ : BufTy).Contents (Elt F)),
    StableHlo.nullary main_c_7 (constantI S_ 32 64#32),
    StableHlo.unary main_c_7 main_v22 (broadcastInDim S2048 ![] bcast_S_S2048 : (⟨S_, .i32⟩ : BufTy).Contents (Elt F) → (⟨S2048, .i32⟩ : BufTy).Contents (Elt F)),
    StableHlo.binary main_v18 main_v22 main_v23 (addi : (⟨S2048, .i32⟩ : BufTy).Contents (Elt F) → (⟨S2048, .i32⟩ : BufTy).Contents (Elt F) → (⟨S2048, .i32⟩ : BufTy).Contents (Elt F)),
    StableHlo.ternary main_v21 main_v23 main_v18 main_v24 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_8 (constantI S_ 32 0#32),
    StableHlo.unary main_c_8 main_v25 (broadcastInDim S2048 ![] bcast_S_S2048 : (⟨S_, .i32⟩ : BufTy).Contents (Elt F) → (⟨S2048, .i32⟩ : BufTy).Contents (Elt F)),
    StableHlo.binary main_arg4 main_v25 main_v26 (cmpi .slt : (⟨S2048, .i32⟩ : BufTy).Contents (Elt F) → (⟨S2048, .i32⟩ : BufTy).Contents (Elt F) → (⟨S2048, .i1⟩ : BufTy).Contents (Elt F)),
    StableHlo.nullary main_c_9 (constantI S_ 32 64#32),
    StableHlo.unary main_c_9 main_v27 (broadcastInDim S2048 ![] bcast_S_S2048 : (⟨S_, .i32⟩ : BufTy).Contents (Elt F) → (⟨S2048, .i32⟩ : BufTy).Contents (Elt F)),
    StableHlo.binary main_arg4 main_v27 main_v28 (addi : (⟨S2048, .i32⟩ : BufTy).Contents (Elt F) → (⟨S2048, .i32⟩ : BufTy).Contents (Elt F) → (⟨S2048, .i32⟩ : BufTy).Contents (Elt F)),
    StableHlo.ternary main_v26 main_v28 main_arg4 main_v29 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v24 main_v30 (broadcastInDim S2048x1 ![0] bcast_S2048_S2048x1_0 : (⟨S2048, .i32⟩ : BufTy).Contents (Elt F) → (⟨S2048x1, .i32⟩ : BufTy).Contents (Elt F)),
    StableHlo.unary main_v29 main_v31 (broadcastInDim S2048x1 ![0] bcast_S2048_S2048x1_0 : (⟨S2048, .i32⟩ : BufTy).Contents (Elt F) → (⟨S2048x1, .i32⟩ : BufTy).Contents (Elt F)),
    StableHlo.binary main_v30 main_v31 main_v32 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.ternary main_v19 main_v32 main_arg1 main_v33 ((fun x i u => Host.scatter scatter_S64x64x64x64_S2048x2_S2048x64x64_12_01_01_1 (fun _ b => b) x i u) : (⟨S64x64x64x64, .f32⟩ : BufTy).Contents (Elt F) → (⟨S2048x2, .i32⟩ : BufTy).Contents (Elt F) → (⟨S2048x64x64, .f32⟩ : BufTy).Contents (Elt F) → (⟨S64x64x64x64, .f32⟩ : BufTy).Contents (Elt F)),
    StableHlo.unary main_v33 main_v34 ((transpose S64x64x64x64 [0, 2, 1, 3] · transposes_S64x64x64x64_S64x64x64x64_0_2_1_3) : (⟨S64x64x64x64, .f32⟩ : BufTy).Contents (Elt F) → (⟨S64x64x64x64, .f32⟩ : BufTy).Contents (Elt F)),
    StableHlo.reshape main_v34 main_v35 rfl shapeCasts_S64x64x64x64_S4096x4096,
    StableHlo.unary main_v35 main_v36 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v36 main_v37 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg2 main_v38 (broadcastInDim S1x4096 ![1] bcast_S4096_S1x4096_1 : (⟨S4096, .f32⟩ : BufTy).Contents (Elt F) → (⟨S1x4096, .f32⟩ : BufTy).Contents (Elt F)),
    StableHlo.unary main_v38 main_v39 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v37 main_v39 main_v40 (addf : (⟨S8192x4096, .f32⟩ : BufTy).Contents (Elt F) → (⟨S8192x4096, .f32⟩ : BufTy).Contents (Elt F) → (⟨S8192x4096, .f32⟩ : BufTy).Contents (Elt F)) ]

/-- `@main` is that straight line: with the called functions' bodies in place of the calls, both sides are one
    chain of the same steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., binary_bufs_sub .., unary_bufs_sub .., unary_bufs_sub .., binary_bufs_sub ..⟩

/-- The concatenation of two arrays along one axis, with the two arrays as plain arguments (in `concatenate` they
    sit inside a list of shape-array pairs). -/
def concat2 {α : Type} (t : Shape) (ax : Fin t.rank) (s₁ s₂ : Shape) (a : s₁.Idx → α) (b : s₂.Idx → α)
    (h : Shape.Concatenates [s₁, s₂] t ax) : t.Idx → α :=
  concatenate t ax [⟨s₁, a⟩, ⟨s₂, b⟩] h

theorem concat2_eq {α : Type} (t : Shape) (ax : Fin t.rank) (s₁ s₂ : Shape) (a : s₁.Idx → α) (b : s₂.Idx → α)
    (h : Shape.Concatenates [s₁, s₂] t ax) :
    concatenate t ax [⟨s₁, a⟩, ⟨s₂, b⟩] h = concat2 t ax s₁ s₂ a b h := rfl

end Cert.ReferenceIdeal.RefRun

end
-- ==== Proof.RefRun.lean ====
import proofs.«139480_j64639257805130_1_alg».proof.Proof.RefOps

/-!
# The reference's run, read back

From any launch memory `@main` — the sequence of the operations `ops` — ends with the result buffer at
`result` of the five arguments' contents and the arguments unchanged (`run`).  The contents of a buffer after
the sequence are computed operation by operation: an operation's own result buffer holds its function of its
operands' contents, every other buffer what it held before.
-/

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The result buffer after the operations is `result` of the arguments' contents: each operation's value at its
    own buffer is its function of its operands' values, and every other buffer keeps what it held. -/
theorem v40_eq (V : Valuation τ sig (Elt F)) :
    after ops V (main_v40 : DevRef τ sig)
      = result (V (main_arg0 : DevRef τ sig)) (V (main_arg1 : DevRef τ sig)) (V (main_arg2 : DevRef τ sig))
          (V (main_arg3 : DevRef τ sig)) (V (main_arg4 : DevRef τ sig)) := by
  simp (disch := decide) only [after_cons, after_nil, nullary_result', unary_result', binary_result', ternary_result', reshape_result', nullary_result_ne', unary_result_ne', binary_result_ne', ternary_result_ne', reshape_result_ne', concat2_eq]
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of
    `@main` terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v40).trans (v40_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.lean ====
/-
  A block-sparse linear layer, tiled, against its plain formulation: equal results on the extended reals.

  Both programs first expand the block-sparse weights (2048 value blocks of 64 × 64, a row pointer and block-column
  indices) into the same dense array of blocks B (r, c, i, j), by the same host operations: one term of the three
  sparse-format arguments, never opened. The plain program lays B out as the dense matrix W (r·64 + i, c·64 + j),
  transposes it, contracts x with it over all 4096 positions and adds the bias to every row. The tiled program lays B
  out directly as the transposed matrix WT (c·64 + j, r·64 + i) and computes each [1024, 1024] output block along a run
  of four grid points: a running block zeroed at the first, the product of the current blocks of x and WT added at each,
  and at the last the running block plus the bias row stored as the output block.

  The two layouts give the same matrix. The four partial inner products over runs of 1024 positions, added from zero in
  order, are the inner product over all 4096 positions: only commutativity and associativity of addition on the extended
  reals are used, so no finiteness of the inputs is needed. Every entry of the result lies in exactly one output block.
  The changes of float format the tiled program applies to x and WT do nothing to an extended real.

  The frames of the two tiled programs are the generated ones; the plain program's frame is its run with the result
  forgotten. The idealization rewrote nothing, so there is nothing to preserve.
-/
import proofs.«139480_j64639257805130_1_alg».proof.Defs
import proofs.«139480_j64639257805130_1_alg».proof.Proof.Gen.Kernel
import proofs.«139480_j64639257805130_1_alg».proof.Proof.Gen.Kernel.Skeleton
import proofs.«139480_j64639257805130_1_alg».proof.Proof.Gen.Kernel.Launch
import proofs.«139480_j64639257805130_1_alg».proof.Proof.Gen.Kernel.Points
import proofs.«139480_j64639257805130_1_alg».proof.Proof.Gen.Kernel.Frame
import proofs.«139480_j64639257805130_1_alg».proof.Proof.Gen.KernelIdeal
import proofs.«139480_j64639257805130_1_alg».proof.Proof.Gen.KernelIdeal.Skeleton
import proofs.«139480_j64639257805130_1_alg».proof.Proof.Gen.KernelIdeal.Launch
import proofs.«139480_j64639257805130_1_alg».proof.Proof.Gen.KernelIdeal.Points
import proofs.«139480_j64639257805130_1_alg».proof.Proof.Gen.KernelIdeal.Frame
import proofs.«139480_j64639257805130_1_alg».proof.Proof.Gen.KernelIdeal.Value
import proofs.«139480_j64639257805130_1_alg».proof.Proof.Gen.ReferenceIdeal
import proofs.«139480_j64639257805130_1_alg».proof.Proof.Gen.Pre_finite_inputs
import proofs.«139480_j64639257805130_1_alg».proof.Proof.KernelRun
import proofs.«139480_j64639257805130_1_alg».proof.Proof.Bridge
import proofs.«139480_j64639257805130_1_alg».proof.Proof.RefRun
import Idealize.ShloMosaic.Adequacy
import Idealize.ShloMosaic.Init

noncomputable section

namespace Cert.Proof

open Idealize.ShloMosaic Idealize.ShloMosaic.TcCoe Idealize.SL.Sem

/-- The two tiled programs run, fault-free, leaving their arguments unchanged: the generated frames. -/
theorem frame_kernel : Cert.frame_Kernel := fun m ρ _ => Cert.Kernel.Gen.frame m ρ
theorem frame_kernel_ideal : Cert.frame_KernelIdeal := fun m ρ _ => Cert.KernelIdeal.Gen.frame m ρ

/-- The plain program runs and leaves its arguments unchanged: its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs build the block array by the same operations: the two terms are one. -/
theorem block_array_eq (vals : (⟨Cert.ReferenceIdeal.S2048x64x64, .f32⟩ : BufTy).Contents (Elt Ideal))
    (crow : (⟨Cert.ReferenceIdeal.S65, .i32⟩ : BufTy).Contents (Elt Ideal))
    (col : (⟨Cert.ReferenceIdeal.S2048, .i32⟩ : BufTy).Contents (Elt Ideal)) :
    Cert.ReferenceIdeal.RefRun.wb (F := Ideal) vals crow col = Cert.KernelIdeal.HostSide.wb (F := Ideal) vals crow col := rfl

/-- The plain program's result is the result function of x, the directly laid out transposed weight matrix and the
    bias: the two layouts of the block array agree, and a contraction is an inner product at each entry. -/
theorem reference_result (x : (⟨Cert.ReferenceIdeal.S8192x4096, .f32⟩ : BufTy).Contents (Elt Ideal))
    (vals : (⟨Cert.ReferenceIdeal.S2048x64x64, .f32⟩ : BufTy).Contents (Elt Ideal))
    (bias : (⟨Cert.ReferenceIdeal.S4096, .f32⟩ : BufTy).Contents (Elt Ideal))
    (crow : (⟨Cert.ReferenceIdeal.S65, .i32⟩ : BufTy).Contents (Elt Ideal))
    (col : (⟨Cert.ReferenceIdeal.S2048, .i32⟩ : BufTy).Contents (Elt Ideal)) :
    Cert.ReferenceIdeal.RefRun.result (F := Ideal) x vals bias crow col
      = Cert.Spec.G x (Cert.KernelIdeal.Run.weightT vals crow col) bias := by
  unfold Cert.ReferenceIdeal.RefRun.result Cert.KernelIdeal.Run.weightT
  rw [block_array_eq]
  exact Cert.Bridge.reference_formula x _ bias _ rfl none _ _ _ _ _ _ _

/-- From memories agreeing on the arguments both programs end, with equal results and unchanged arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact reference_result _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
